-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel

variable [Facts]

def fn {F : FTy → Type} [FloatOps F] (main_arg0 : FVec F S8192x128 .f32) (main_arg1 : FVec F S8192x128 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x128 .f32 := Host.absf main_arg1
  let main_cst_0 : FVec F S_ .f32 := constant S_ .f32 0x7F800000#32
  let main_v5 : FVec F S8192x128 .f32 := broadcastInDim S8192x128 ![] bcast_S_S8192x128 main_cst_0
  let main_v6 : IVec S8192x128 1 := cmpf .olt main_v4 main_v5
  let main_c_1 : IVec S_ 1 := constantI S_ 1 1#1
  let main_v7 : IVec S_ 1 := (fun x v => Host.reduce IntOp.andi x v reducesTo_S8192x128_S_d0_1 h_S_) main_v6 main_c_1
  let main_v8 : IVec S_ 1 := andi main_v3 main_v7
  main_v8
-- ==== Kernel.lean ====
abbrev S8192x128 : Shape := ⟨2, ![8192, 128]⟩
abbrev S16384x128 : Shape := ⟨2, ![16384, 128]⟩
abbrev S8192 : Shape := ⟨1, ![8192]⟩
abbrev S1024x128 : Shape := ⟨2, ![1024, 128]⟩
abbrev S1024 : Shape := ⟨1, ![1024]⟩
abbrev S1024x1 : Shape := ⟨2, ![1024, 1]⟩
abbrev S1x1024 : Shape := ⟨2, ![1, 1024]⟩
abbrev S128x1024 : Shape := ⟨2, ![128, 1024]⟩
abbrev S1024x1024 : Shape := ⟨2, ![1024, 1024]⟩
abbrev S_ : Shape := ⟨0, ![]⟩

abbrev nBuf : Space → Nat
  | .hbm => 8
  | .vmem => 9
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S16384x128, .f32⟩
  | .hbm, ⟨3, _⟩ => ⟨S8192, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024, .f32⟩
  | .local _ .vmem, ⟨5, _⟩ => ⟨S1024, .f32⟩
  | .local _ .vmem, ⟨6, _⟩ => ⟨S1024x1, .f32⟩
  | .local _ .vmem, ⟨7, _⟩ => ⟨S1024x1, .f32⟩
  | .local _ .vmem, ⟨8, _⟩ => ⟨S1024x1, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 16], ![false, false]⟩

def k0_cond4 (i : grid0.Coords) : BitVec 1 :=
  let arg1 : BitVec 32 := BitVec.ofNat 32 (i 1).val
  let c15_i32 : BitVec 32 := 15#32
  let v47 : BitVec 1 := Scalar.cmpi .eq arg1 c15_i32
  let v48 : BitVec 32 := Scalar.extui v47
  let c0_i32_16 : BitVec 32 := 0#32
  let v49 : BitVec 1 := Scalar.cmpi .ne v48 c0_i32_16
  v49

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  concatenates_S8192x128_S8192x128_S16384x128_d0 : Shape.Concatenates [S8192x128, S8192x128] S16384x128 0
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  reduces_S1024x128_S1024 : S1024x128.Reduces [1] S1024
  shapeCasts_S1024_S1024x1 : S1024.ShapeCasts S1024x1
  transposes_S1024x1_p1_0_S1x1024 : S1024x1.Transposes [1, 0] S1x1024
  bitsLt_bf16_f32 : FTy.bits .bf16 < FTy.bits .f32
  transposes_S1024x128_p1_0_S128x1024 : S1024x128.Transposes [1, 0] S128x1024
  broadcasts_S1024x1_S1024x1024 : S1024x1.Broadcasts S1024x1024
  broadcasts_S1x1024_S1024x1024 : S1x1024.Broadcasts S1024x1024
  reduces_S1024x1024_S1024 : S1024x1024.Reduces [1] S1024
  iota_S1024x1024_d0_w32 : S1024x1024.Iotas .tc 32 [0]
  iota_S1024x1024_d1_w32 : S1024x1024.Iotas .tc 32 [1]
  shapeCasts_S1024x1_S1024 : S1024x1.ShapeCasts S1024
  inb_S1024_S1024_0 : ∀ a, (![0] : Fin 1 → Nat) a + S1024.size a ≤ S1024.size a
  h_S1024 : 0 < S1024.numel
  reducesTo_S8192_S_d0 : S8192.ReducesTo [0] S_
  h_S_ : 0 < S_.numel
  dot_S1024x128_S128x1024_S1024x1024_1_0_0_1_n_n_wf : DotDims.WF S1024x128 S128x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .f32 = 32 ∨ (Rect.block (s := S8192x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S16384x128.size a
  hwx0_1 : ∀ i : grid0.Coords, EltTy.bits .f32 = 32 ∨ (Rect.block (s := S16384x128) S1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S8192.size a
  hwx0_2 : ∀ i : grid0.Coords, EltTy.bits .f32 = 32 ∨ (Rect.block (s := S8192) S1024.size (cc0_transform_2 i) (hinb0_2 i)).WholeWords (EltTy.packing .f32)

variable [Facts₀]

def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf

abbrev win0_0 : Pipeline.Window sig grid0 :=
  Pipeline.Window.ofSpec (Memref.whole main_arg0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond4 i == 1#1) | ⟨_ + 3, h⟩ => absurd h (Nat.not_lt.2 (Nat.le_add_left _ _))

class Facts : Prop extends Facts₀ where

variable [Facts]
-- ==== ReferenceIdeal.lean ====
abbrev S8192x128 : Shape := ⟨2, ![8192, 128]⟩
abbrev S16384x128 : Shape := ⟨2, ![16384, 128]⟩
abbrev S_ : Shape := ⟨0, ![]⟩
abbrev S8192 : Shape := ⟨1, ![8192]⟩
abbrev S16384 : Shape := ⟨1, ![16384]⟩
abbrev S128x16384 : Shape := ⟨2, ![128, 16384]⟩
abbrev S8192x16384 : Shape := ⟨2, ![8192, 16384]⟩
abbrev S8192x1 : Shape := ⟨2, ![8192, 1]⟩
abbrev S1x16384 : Shape := ⟨2, ![1, 16384]⟩
abbrev S8192x2 : Shape := ⟨2, ![8192, 2]⟩

abbrev nBuf : Space → Nat
  | .hbm => 77
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S16384x128, .f32⟩
  | .hbm, ⟨3, _⟩ => ⟨S8192x128, .f32⟩
  | .hbm, ⟨4, _⟩ => ⟨S_, .f32⟩
  | .hbm, ⟨5, _⟩ => ⟨S8192, .f32⟩
  | .hbm, ⟨6, _⟩ => ⟨S8192, .f32⟩
  | .hbm, ⟨7, _⟩ => ⟨S16384x128, .f32⟩
  | .hbm, ⟨8, _⟩ => ⟨S_, .f32⟩
  | .hbm, ⟨9, _⟩ => ⟨S16384, .f32⟩
  | .hbm, ⟨10, _⟩ => ⟨S16384, .f32⟩
  | .hbm, ⟨11, _⟩ => ⟨S128x16384, .f32⟩
  | .hbm, ⟨12, _⟩ => ⟨S8192x16384, .f32⟩
  | .hbm, ⟨13, _⟩ => ⟨S8192x1, .f32⟩
  | .hbm, ⟨14, _⟩ => ⟨S1x16384, .f32⟩
  | .hbm, ⟨15, _⟩ => ⟨S8192x16384, .f32⟩
  | .hbm, ⟨16, _⟩ => ⟨S8192x16384, .f32⟩
  | .hbm, ⟨17, _⟩ => ⟨S8192x16384, .f32⟩
  | .hbm, ⟨18, _⟩ => ⟨S_, .f32⟩
  | .hbm, ⟨19, _⟩ => ⟨S8192x16384, .f32⟩
  | .hbm, ⟨20, _⟩ => ⟨S8192x16384, .f32⟩
  | .hbm, ⟨21, _⟩ => ⟨S8192x16384, .f32⟩
  | .hbm, ⟨22, _⟩ => ⟨S8192x16384, .f32⟩
  | .hbm, ⟨23, _⟩ => ⟨S8192, .i32⟩
  | .hbm, ⟨24, _⟩ => ⟨S_, .i32⟩
  | .hbm, ⟨25, _⟩ => ⟨S8192, .i32⟩
  | .hbm, ⟨26, _⟩ => ⟨S8192, .i1⟩
  | .hbm, ⟨27, _⟩ => ⟨S_, .i32⟩
  | .hbm, ⟨28, _⟩ => ⟨S8192, .i32⟩
  | .hbm, ⟨29, _⟩ => ⟨S8192, .i32⟩
  | .hbm, ⟨30, _⟩ => ⟨S8192, .i32⟩
  | .hbm, ⟨31, _⟩ => ⟨S_, .i32⟩
  | .hbm, ⟨32, _⟩ => ⟨S8192, .i32⟩
  | .hbm, ⟨33, _⟩ => ⟨S8192, .i1⟩
  | .hbm, ⟨34, _⟩ => ⟨S_, .i32⟩
  | .hbm, ⟨35, _⟩ => ⟨S8192, .i32⟩
  | .hbm, ⟨36, _⟩ => ⟨S8192, .i32⟩
  | .hbm, ⟨37, _⟩ => ⟨S8192, .i32⟩
  | .hbm, ⟨38, _⟩ => ⟨S8192x1, .i32⟩
  | .hbm, ⟨39, _⟩ => ⟨S8192x1, .i32⟩
  | .hbm, ⟨40, _⟩ => ⟨S8192x2, .i32⟩
  | .hbm, ⟨41, _⟩ => ⟨S8192, .f32⟩
  | .hbm, ⟨42, _⟩ => ⟨S_, .i32⟩
  | .hbm, ⟨43, _⟩ => ⟨S8192, .i32⟩
  | .hbm, ⟨44, _⟩ => ⟨S8192, .i32⟩
  | .hbm, ⟨45, _⟩ => ⟨S_, .i32⟩
  | .hbm, ⟨46, _⟩ => ⟨S8192, .i32⟩
  | .hbm, ⟨47, _⟩ => ⟨S8192, .i1⟩
  | .hbm, ⟨48, _⟩ => ⟨S_, .i32⟩
  | .hbm, ⟨49, _⟩ => ⟨S8192, .i32⟩
  | .hbm, ⟨50, _⟩ => ⟨S8192, .i32⟩
  | .hbm, ⟨51, _⟩ => ⟨S8192, .i32⟩
  | .hbm, ⟨52, _⟩ => ⟨S_, .i32⟩
  | .hbm, ⟨53, _⟩ => ⟨S8192, .i32⟩
  | .hbm, ⟨54, _⟩ => ⟨S8192, .i1⟩
  | .hbm, ⟨55, _⟩ => ⟨S_, .i32⟩
  | .hbm, ⟨56, _⟩ => ⟨S8192, .i32⟩
  | .hbm, ⟨57, _⟩ => ⟨S8192, .i32⟩
  | .hbm, ⟨58, _⟩ => ⟨S8192, .i32⟩
  | .hbm, ⟨59, _⟩ => ⟨S8192x1, .i32⟩
  | .hbm, ⟨60, _⟩ => ⟨S8192x1, .i32⟩
  | .hbm, ⟨61, _⟩ => ⟨S8192x2, .i32⟩
  | .hbm, ⟨62, _⟩ => ⟨S8192, .f32⟩
  | .hbm, ⟨63, _⟩ => ⟨S_, .f32⟩
  | .hbm, ⟨64, _⟩ => ⟨S8192, .f32⟩
  | .hbm, ⟨65, _⟩ => ⟨S8192, .f32⟩
  | .hbm, ⟨66, _⟩ => ⟨S8192, .f32⟩
  | .hbm, ⟨67, _⟩ => ⟨S_, .f32⟩
  | .hbm, ⟨68, _⟩ => ⟨S8192, .f32⟩
  | .hbm, ⟨69, _⟩ => ⟨S8192, .f32⟩
  | .hbm, ⟨70, _⟩ => ⟨S8192, .f32⟩
  | .hbm, ⟨71, _⟩ => ⟨S8192, .f32⟩
  | .hbm, ⟨72, _⟩ => ⟨S8192, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_v1 : Ref sig .tc := ⟨.hbm, 6, rfl⟩
abbrev main_call1_v0 : Ref sig .tc := ⟨.hbm, 7, rfl⟩
abbrev main_call1_cst : Ref sig .tc := ⟨.hbm, 8, rfl⟩
abbrev main_call1_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c : Ref sig .tc := ⟨.hbm, 24, rfl⟩
abbrev main_v15 : Ref sig .tc := ⟨.hbm, 25, rfl⟩
abbrev main_v16 : Ref sig .tc := ⟨.hbm, 26, rfl⟩
abbrev main_c_0 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_1 : Ref sig .tc := ⟨.hbm, 31, rfl⟩
abbrev main_v20 : Ref sig .tc := ⟨.hbm, 32, rfl⟩
abbrev main_v21 : Ref sig .tc := ⟨.hbm, 33, rfl⟩
abbrev main_c_2 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_c_3 : Ref sig .tc := ⟨.hbm, 42, rfl⟩
abbrev main_v29 : Ref sig .tc := ⟨.hbm, 43, rfl⟩
abbrev main_v30 : Ref sig .tc := ⟨.hbm, 44, rfl⟩
abbrev main_c_4 : Ref sig .tc := ⟨.hbm, 45, rfl⟩
abbrev main_v31 : Ref sig .tc := ⟨.hbm, 46, rfl⟩
abbrev main_v32 : Ref sig .tc := ⟨.hbm, 47, rfl⟩
abbrev main_c_5 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_c_6 : Ref sig .tc := ⟨.hbm, 52, rfl⟩
abbrev main_v36 : Ref sig .tc := ⟨.hbm, 53, rfl⟩
abbrev main_v37 : Ref sig .tc := ⟨.hbm, 54, rfl⟩
abbrev main_c_7 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_8 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_9 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_10 : Ref sig .tc := ⟨.hbm, 73, rfl⟩
abbrev main_v53 : Ref sig .tc := ⟨.hbm, 74, rfl⟩
abbrev main_cst_11 : Ref sig .tc := ⟨.hbm, 75, rfl⟩
abbrev main_v54 : Ref sig .tc := ⟨.hbm, 76, rfl⟩

abbrev nD : Nat := 1
abbrev τ : Topo := Topo.v7x

variable {F : FTy → Type} [FloatOps F]

class Facts₀ : Prop where
  concatenates_S8192x128_S8192x128_S16384x128_d0 : Shape.Concatenates [S8192x128, S8192x128] S16384x128 0
  reducesTo_S8192x128_S8192_d1 : S8192x128.ReducesTo [1] S8192
  h_S_ : 0 < S_.numel
  reducesTo_S16384x128_S16384_d1 : S16384x128.ReducesTo [1] S16384
  transposes_S16384x128_S128x16384_1_0 : S16384x128.Transposes [1, 0] S128x16384
  bcast_S8192_S8192x1_0 : S8192.BroadcastsInDim S8192x1 (![0] : Fin 1 → Fin S8192x1.rank)
  bcast_S16384_S1x16384_1 : S16384.BroadcastsInDim S1x16384 (![1] : Fin 1 → Fin S1x16384.rank)
  bcast_S8192x1_S8192x16384_0_1 : S8192x1.BroadcastsInDim S8192x16384 (![0, 1] : Fin 2 → Fin S8192x16384.rank)
  bcast_S1x16384_S8192x16384_0_1 : S1x16384.BroadcastsInDim S8192x16384 (![0, 1] : Fin 2 → Fin S8192x16384.rank)
  bcast_S_S8192x16384 : S_.BroadcastsInDim S8192x16384 (![] : Fin 0 → Fin S8192x16384.rank)
  bcast_S_S8192 : S_.BroadcastsInDim S8192 (![] : Fin 0 → Fin S8192.rank)
  concatenates_S8192x1_S8192x1_S8192x2_d1 : Shape.Concatenates [S8192x1, S8192x1] S8192x2 1
  reducesTo_S8192x16384_S8192_d1 : S8192x16384.ReducesTo [1] S8192
  reducesTo_S8192_S_d0 : S8192.ReducesTo [0] S_
  dot_S8192x128_S128x16384_S8192x16384_1_0_0_1_n_n_wf : DotDims.WF S8192x128 S128x16384 S8192x16384 [1] [0] [0] [1] [] []
  gather_S8192x16384_S8192x2_S8192_n_01_n_n_01_1_11_wf : GatherDims.WF S8192x16384 S8192x2 S8192 [] [0, 1] [] [0, 1] [] 1 ![1, 1]

variable [Facts₀]

def dot_S8192x128_S128x16384_S8192x16384_1_0_0_1_n_n : DotDims S8192x128 S128x16384 S8192x16384 where
  lhsContracting := [1]
  rhsContracting := [0]
  lhsNonContracting := [0]
  rhsNonContracting := [1]
  lhsBatch := []
  rhsBatch := []
  wf := dot_S8192x128_S128x16384_S8192x16384_1_0_0_1_n_n_wf
def gather_S8192x16384_S8192x2_S8192_n_01_n_n_01_1_11 : GatherDims S8192x16384 S8192x2 S8192 where
  offsetDims := []
  collapsedSliceDims := [0, 1]
  operandBatchingDims := []
  startIndicesBatchingDims := []
  startIndexMap := [0, 1]
  indexVectorDim := 1
  sliceSizes := ![1, 1]
  wf := gather_S8192x16384_S8192x2_S8192_n_01_n_n_01_1_11_wf

class Facts : Prop extends Facts₀ where

variable [Facts]
-- ==== Proof.CaseValues.lean ====
/-
  What each of the kernel body's seven control cases leaves in the three scratch buffers it carries from one grid
  point to the next (the running row sum, the positive term, the self term) and in the output block, as the body's
  pure payload terms of the two input blocks and of what the point before left. The grid is 8 row blocks × 16 column
  blocks, visited row block by row block; the body resets the three buffers at column block 0, adds the block's row
  sums to the running sum at every point, stores the block's diagonal as the positive term at column block i and as the
  self term at column block i + 8, and writes the row block's losses at column block 15. A buffer a case does not
  store into keeps what the point before left, by definition; every stored buffer is stored whole, so it holds its
  last store's payload, whose loads read whole buffers (or read back a store made earlier at the same point).
-/
import proofs.«126366_j87290915323998_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.CaseValues

open Cert.KernelIdeal Cert.KernelIdeal.Gen

variable {F : FTy → Type} [FloatOps F]

theorem hz2 : (![0, 0] : Fin 2 → Nat) = fun _ => 0 := funext fun a => by fin_cases a <;> rfl
theorem hz1 : (![0] : Fin 1 → Nat) = fun _ => 0 := funext fun a => by fin_cases a <;> rfl

/-- At the first point of the grid (row block 0 against column block 0) the running row sum is reset to zero and then receives this block's row sums. -/
theorem rowsum_A (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : cond0_0 i) (hc1 : cond0_1 i) (hc2 : ¬cond0_2 i) (hc3 : ¬cond0_3 i)
    (x0 : Vec F S1024x128 .f32) (x1 : Vec F S1024x128 .f32)  :
    sout0_A_0 c i arg2 harg2 arg3 harg3 arg4 harg4 arg5 harg5 arg6 harg6 arg7 harg7 hc0 hc1 hc2 hc3 x0 x1  = k0_pay9 x0 x1 (k0_pay5 (F := F)) := by
  unfold sout0_A_0
  rw [View.read_writes_eq_canon _ _ _ (scover0_A_0 c i arg2 harg2 arg3 harg3 arg4 harg4 arg5 harg5 arg6 harg6 arg7 harg7 hc0 hc1 hc2 hc3 x0 x1 )]
  unfold kernelRun0_A
  dsimp only
  (try sl_unfold_words)
  simp only [View.canon_unit_zero (S := S1024x1) hz2, View.canon_unit_zero (S := S1024) hz1, View.canon_cons_unit_zero (S := S1024x1) hz2,
    View.canon_cons_unit_zero (S := S1024) hz1, View.readCov_unit_zero (S := S1024x1) _ hz2, View.readAt_eq_ld,
    harg2.read_unread, harg3.read_unread, harg5.read_unread, harg6.read_unread, harg7.read_unread,
    View.ld_unit_zero (S := S1024x128) hz2, View.ld_unit_zero (S := S1024x1) hz2]

/-- At the first point the column block is the diagonal one: the positive term is reset and then receives the block's diagonal. -/
theorem pos_A (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : cond0_0 i) (hc1 : cond0_1 i) (hc2 : ¬cond0_2 i) (hc3 : ¬cond0_3 i)
    (x0 : Vec F S1024x128 .f32) (x1 : Vec F S1024x128 .f32)  :
    sout0_A_1 c i arg2 harg2 arg3 harg3 arg4 harg4 arg5 harg5 arg6 harg6 arg7 harg7 hc0 hc1 hc2 hc3 x0 x1  = k0_pay2 (k0_pay10 x0 x1) := by
  unfold sout0_A_1
  rw [View.read_writes_eq_canon _ _ _ (scover0_A_1 c i arg2 harg2 arg3 harg3 arg4 harg4 arg5 harg5 arg6 harg6 arg7 harg7 hc0 hc1 hc2 hc3 x0 x1 )]
  unfold kernelRun0_A
  dsimp only
  (try sl_unfold_words)
  simp only [View.canon_unit_zero (S := S1024x1) hz2, View.canon_unit_zero (S := S1024) hz1, View.canon_cons_unit_zero (S := S1024x1) hz2,
    View.canon_cons_unit_zero (S := S1024) hz1, View.readCov_unit_zero (S := S1024x1) _ hz2, View.readAt_eq_ld,
    harg2.read_unread, harg3.read_unread, harg5.read_unread, harg6.read_unread, harg7.read_unread,
    View.ld_unit_zero (S := S1024x128) hz2, View.ld_unit_zero (S := S1024x1) hz2]

/-- At the first point the self term is reset to zero. -/
theorem self_A (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : cond0_0 i) (hc1 : cond0_1 i) (hc2 : ¬cond0_2 i) (hc3 : ¬cond0_3 i)
    (x0 : Vec F S1024x128 .f32) (x1 : Vec F S1024x128 .f32)  :
    sout0_A_2 c i arg2 harg2 arg3 harg3 arg4 harg4 arg5 harg5 arg6 harg6 arg7 harg7 hc0 hc1 hc2 hc3 x0 x1  = (k0_pay7 (F := F)) := by
  unfold sout0_A_2
  rw [View.read_writes_eq_canon _ _ _ (scover0_A_2 c i arg2 harg2 arg3 harg3 arg4 harg4 arg5 harg5 arg6 harg6 arg7 harg7 hc0 hc1 hc2 hc3 x0 x1 )]
  unfold kernelRun0_A
  dsimp only
  (try sl_unfold_words)
  simp only [View.canon_unit_zero (S := S1024x1) hz2, View.canon_unit_zero (S := S1024) hz1, View.canon_cons_unit_zero (S := S1024x1) hz2,
    View.canon_cons_unit_zero (S := S1024) hz1, View.readCov_unit_zero (S := S1024x1) _ hz2, View.readAt_eq_ld,
    harg2.read_unread, harg3.read_unread, harg5.read_unread, harg6.read_unread, harg7.read_unread,
    View.ld_unit_zero (S := S1024x128) hz2, View.ld_unit_zero (S := S1024x1) hz2]

/-- At an ordinary point the running row sum receives this block's row sums on top of what the point before left. -/
theorem rowsum_B (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : ¬cond0_1 i) (hc2 : ¬cond0_2 i) (hc3 : ¬cond0_3 i)
    (x0 : Vec F S1024x128 .f32) (x1 : Vec F S1024x128 .f32) (xs0 : Vec F S1024x1 .f32) (xs1 : Vec F S1024x1 .f32) (xs2 : Vec F S1024x1 .f32) :
    sout0_B_0 c i arg2 harg2 arg3 harg3 arg4 harg4 arg5 harg5 arg6 harg6 arg7 harg7 hc0 hc1 hc2 hc3 x0 x1 xs0 xs1 xs2 = k0_pay9 x0 x1 xs0 := by
  unfold sout0_B_0
  rw [View.read_writes_eq_canon _ _ _ (scover0_B_0 c i arg2 harg2 arg3 harg3 arg4 harg4 arg5 harg5 arg6 harg6 arg7 harg7 hc0 hc1 hc2 hc3 x0 x1 xs0 xs1 xs2)]
  unfold kernelRun0_B
  dsimp only
  (try sl_unfold_words)
  simp only [View.canon_unit_zero (S := S1024x1) hz2, View.canon_unit_zero (S := S1024) hz1, View.canon_cons_unit_zero (S := S1024x1) hz2,
    View.canon_cons_unit_zero (S := S1024) hz1, View.readCov_unit_zero (S := S1024x1) _ hz2, View.readAt_eq_ld,
    harg2.read_unread, harg3.read_unread, harg5.read_unread, harg6.read_unread, harg7.read_unread,
    View.ld_unit_zero (S := S1024x128) hz2, View.ld_unit_zero (S := S1024x1) hz2]

/-- Where the column block holds the rows' own copies in the stacked table, the running row sum is updated as everywhere. -/
theorem rowsum_C (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : ¬cond0_1 i) (hc2 : cond0_2 i) (hc3 : ¬cond0_3 i)
    (x0 : Vec F S1024x128 .f32) (x1 : Vec F S1024x128 .f32) (xs0 : Vec F S1024x1 .f32) (xs1 : Vec F S1024x1 .f32) :
    sout0_C_0 c i arg2 harg2 arg3 harg3 arg4 harg4 arg5 harg5 arg6 harg6 arg7 harg7 hc0 hc1 hc2 hc3 x0 x1 xs0 xs1 = k0_pay9 x0 x1 xs0 := by
  unfold sout0_C_0
  rw [View.read_writes_eq_canon _ _ _ (scover0_C_0 c i arg2 harg2 arg3 harg3 arg4 harg4 arg5 harg5 arg6 harg6 arg7 harg7 hc0 hc1 hc2 hc3 x0 x1 xs0 xs1)]
  unfold kernelRun0_C
  dsimp only
  (try sl_unfold_words)
  simp only [View.canon_unit_zero (S := S1024x1) hz2, View.canon_unit_zero (S := S1024) hz1, View.canon_cons_unit_zero (S := S1024x1) hz2,
    View.canon_cons_unit_zero (S := S1024) hz1, View.readCov_unit_zero (S := S1024x1) _ hz2, View.readAt_eq_ld,
    harg2.read_unread, harg3.read_unread, harg5.read_unread, harg6.read_unread, harg7.read_unread,
    View.ld_unit_zero (S := S1024x128) hz2, View.ld_unit_zero (S := S1024x1) hz2]

/-- Where the column block holds the rows' own copies, the self term receives the block's diagonal. -/
theorem self_C (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : ¬cond0_1 i) (hc2 : cond0_2 i) (hc3 : ¬cond0_3 i)
    (x0 : Vec F S1024x128 .f32) (x1 : Vec F S1024x128 .f32) (xs0 : Vec F S1024x1 .f32) (xs1 : Vec F S1024x1 .f32) :
    sout0_C_2 c i arg2 harg2 arg3 harg3 arg4 harg4 arg5 harg5 arg6 harg6 arg7 harg7 hc0 hc1 hc2 hc3 x0 x1 xs0 xs1 = k0_pay3 (k0_pay10 x0 x1) := by
  unfold sout0_C_2
  rw [View.read_writes_eq_canon _ _ _ (scover0_C_2 c i arg2 harg2 arg3 harg3 arg4 harg4 arg5 harg5 arg6 harg6 arg7 harg7 hc0 hc1 hc2 hc3 x0 x1 xs0 xs1)]
  unfold kernelRun0_C
  dsimp only
  (try sl_unfold_words)
  simp only [View.canon_unit_zero (S := S1024x1) hz2, View.canon_unit_zero (S := S1024) hz1, View.canon_cons_unit_zero (S := S1024x1) hz2,
    View.canon_cons_unit_zero (S := S1024) hz1, View.readCov_unit_zero (S := S1024x1) _ hz2, View.readAt_eq_ld,
    harg2.read_unread, harg3.read_unread, harg5.read_unread, harg6.read_unread, harg7.read_unread,
    View.ld_unit_zero (S := S1024x128) hz2, View.ld_unit_zero (S := S1024x1) hz2]

/-- At the last column block the output block receives the loss of the carried positive and self terms and of the row sum just completed. -/
theorem out_D (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : ¬cond0_1 i) (hc2 : ¬cond0_2 i) (hc3 : cond0_3 i)
    (x0 : Vec F S1024x128 .f32) (x1 : Vec F S1024x128 .f32) (xs0 : Vec F S1024x1 .f32) (xs1 : Vec F S1024x1 .f32) (xs2 : Vec F S1024x1 .f32) :
    out0_D_2 c i arg2 harg2 arg3 harg3 arg4 harg4 arg5 harg5 arg6 harg6 arg7 harg7 hc0 hc1 hc2 hc3 x0 x1 xs0 xs1 xs2 = k0_pay4 xs1 xs2 (k0_pay9 x0 x1 xs0) := by
  unfold out0_D_2
  rw [View.read_writes_eq_canon _ _ _ (cover0_D_2 c i arg2 harg2 arg3 harg3 arg4 harg4 arg5 harg5 arg6 harg6 arg7 harg7 hc0 hc1 hc2 hc3 x0 x1 xs0 xs1 xs2)]
  unfold kernelRun0_D
  dsimp only
  (try sl_unfold_words)
  simp only [View.canon_unit_zero (S := S1024x1) hz2, View.canon_unit_zero (S := S1024) hz1, View.canon_cons_unit_zero (S := S1024x1) hz2,
    View.canon_cons_unit_zero (S := S1024) hz1, View.readCov_unit_zero (S := S1024x1) _ hz2, View.readAt_eq_ld,
    harg2.read_unread, harg3.read_unread, harg5.read_unread, harg6.read_unread, harg7.read_unread,
    View.ld_unit_zero (S := S1024x128) hz2, View.ld_unit_zero (S := S1024x1) hz2]

/-- At the last column block the running row sum is completed. -/
theorem rowsum_D (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : ¬cond0_1 i) (hc2 : ¬cond0_2 i) (hc3 : cond0_3 i)
    (x0 : Vec F S1024x128 .f32) (x1 : Vec F S1024x128 .f32) (xs0 : Vec F S1024x1 .f32) (xs1 : Vec F S1024x1 .f32) (xs2 : Vec F S1024x1 .f32) :
    sout0_D_0 c i arg2 harg2 arg3 harg3 arg4 harg4 arg5 harg5 arg6 harg6 arg7 harg7 hc0 hc1 hc2 hc3 x0 x1 xs0 xs1 xs2 = k0_pay9 x0 x1 xs0 := by
  unfold sout0_D_0
  rw [View.read_writes_eq_canon _ _ _ (scover0_D_0 c i arg2 harg2 arg3 harg3 arg4 harg4 arg5 harg5 arg6 harg6 arg7 harg7 hc0 hc1 hc2 hc3 x0 x1 xs0 xs1 xs2)]
  unfold kernelRun0_D
  dsimp only
  (try sl_unfold_words)
  simp only [View.canon_unit_zero (S := S1024x1) hz2, View.canon_unit_zero (S := S1024) hz1, View.canon_cons_unit_zero (S := S1024x1) hz2,
    View.canon_cons_unit_zero (S := S1024) hz1, View.readCov_unit_zero (S := S1024x1) _ hz2, View.readAt_eq_ld,
    harg2.read_unread, harg3.read_unread, harg5.read_unread, harg6.read_unread, harg7.read_unread,
    View.ld_unit_zero (S := S1024x128) hz2, View.ld_unit_zero (S := S1024x1) hz2]

/-- At the first column block of a later row block the running row sum is reset and receives this block's row sums. -/
theorem rowsum_E (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : cond0_0 i) (hc1 : ¬cond0_1 i) (hc2 : ¬cond0_2 i) (hc3 : ¬cond0_3 i)
    (x0 : Vec F S1024x128 .f32) (x1 : Vec F S1024x128 .f32)  :
    sout0_E_0 c i arg2 harg2 arg3 harg3 arg4 harg4 arg5 harg5 arg6 harg6 arg7 harg7 hc0 hc1 hc2 hc3 x0 x1  = k0_pay9 x0 x1 (k0_pay5 (F := F)) := by
  unfold sout0_E_0
  rw [View.read_writes_eq_canon _ _ _ (scover0_E_0 c i arg2 harg2 arg3 harg3 arg4 harg4 arg5 harg5 arg6 harg6 arg7 harg7 hc0 hc1 hc2 hc3 x0 x1 )]
  unfold kernelRun0_E
  dsimp only
  (try sl_unfold_words)
  simp only [View.canon_unit_zero (S := S1024x1) hz2, View.canon_unit_zero (S := S1024) hz1, View.canon_cons_unit_zero (S := S1024x1) hz2,
    View.canon_cons_unit_zero (S := S1024) hz1, View.readCov_unit_zero (S := S1024x1) _ hz2, View.readAt_eq_ld,
    harg2.read_unread, harg3.read_unread, harg5.read_unread, harg6.read_unread, harg7.read_unread,
    View.ld_unit_zero (S := S1024x128) hz2, View.ld_unit_zero (S := S1024x1) hz2]

/-- At the first column block of a later row block the positive term is reset to zero. -/
theorem pos_E (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : cond0_0 i) (hc1 : ¬cond0_1 i) (hc2 : ¬cond0_2 i) (hc3 : ¬cond0_3 i)
    (x0 : Vec F S1024x128 .f32) (x1 : Vec F S1024x128 .f32)  :
    sout0_E_1 c i arg2 harg2 arg3 harg3 arg4 harg4 arg5 harg5 arg6 harg6 arg7 harg7 hc0 hc1 hc2 hc3 x0 x1  = (k0_pay6 (F := F)) := by
  unfold sout0_E_1
  rw [View.read_writes_eq_canon _ _ _ (scover0_E_1 c i arg2 harg2 arg3 harg3 arg4 harg4 arg5 harg5 arg6 harg6 arg7 harg7 hc0 hc1 hc2 hc3 x0 x1 )]
  unfold kernelRun0_E
  dsimp only
  (try sl_unfold_words)
  simp only [View.canon_unit_zero (S := S1024x1) hz2, View.canon_unit_zero (S := S1024) hz1, View.canon_cons_unit_zero (S := S1024x1) hz2,
    View.canon_cons_unit_zero (S := S1024) hz1, View.readCov_unit_zero (S := S1024x1) _ hz2, View.readAt_eq_ld,
    harg2.read_unread, harg3.read_unread, harg5.read_unread, harg6.read_unread, harg7.read_unread,
    View.ld_unit_zero (S := S1024x128) hz2, View.ld_unit_zero (S := S1024x1) hz2]

/-- At the first column block of a later row block the self term is reset to zero. -/
theorem self_E (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : cond0_0 i) (hc1 : ¬cond0_1 i) (hc2 : ¬cond0_2 i) (hc3 : ¬cond0_3 i)
    (x0 : Vec F S1024x128 .f32) (x1 : Vec F S1024x128 .f32)  :
    sout0_E_2 c i arg2 harg2 arg3 harg3 arg4 harg4 arg5 harg5 arg6 harg6 arg7 harg7 hc0 hc1 hc2 hc3 x0 x1  = (k0_pay7 (F := F)) := by
  unfold sout0_E_2
  rw [View.read_writes_eq_canon _ _ _ (scover0_E_2 c i arg2 harg2 arg3 harg3 arg4 harg4 arg5 harg5 arg6 harg6 arg7 harg7 hc0 hc1 hc2 hc3 x0 x1 )]
  unfold kernelRun0_E
  dsimp only
  (try sl_unfold_words)
  simp only [View.canon_unit_zero (S := S1024x1) hz2, View.canon_unit_zero (S := S1024) hz1, View.canon_cons_unit_zero (S := S1024x1) hz2,
    View.canon_cons_unit_zero (S := S1024) hz1, View.readCov_unit_zero (S := S1024x1) _ hz2, View.readAt_eq_ld,
    harg2.read_unread, harg3.read_unread, harg5.read_unread, harg6.read_unread, harg7.read_unread,
    View.ld_unit_zero (S := S1024x128) hz2, View.ld_unit_zero (S := S1024x1) hz2]

/-- At the diagonal column block the running row sum is updated as everywhere. -/
theorem rowsum_F (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i) (hc2 : ¬cond0_2 i) (hc3 : ¬cond0_3 i)
    (x0 : Vec F S1024x128 .f32) (x1 : Vec F S1024x128 .f32) (xs0 : Vec F S1024x1 .f32) (xs2 : Vec F S1024x1 .f32) :
    sout0_F_0 c i arg2 harg2 arg3 harg3 arg4 harg4 arg5 harg5 arg6 harg6 arg7 harg7 hc0 hc1 hc2 hc3 x0 x1 xs0 xs2 = k0_pay9 x0 x1 xs0 := by
  unfold sout0_F_0
  rw [View.read_writes_eq_canon _ _ _ (scover0_F_0 c i arg2 harg2 arg3 harg3 arg4 harg4 arg5 harg5 arg6 harg6 arg7 harg7 hc0 hc1 hc2 hc3 x0 x1 xs0 xs2)]
  unfold kernelRun0_F
  dsimp only
  (try sl_unfold_words)
  simp only [View.canon_unit_zero (S := S1024x1) hz2, View.canon_unit_zero (S := S1024) hz1, View.canon_cons_unit_zero (S := S1024x1) hz2,
    View.canon_cons_unit_zero (S := S1024) hz1, View.readCov_unit_zero (S := S1024x1) _ hz2, View.readAt_eq_ld,
    harg2.read_unread, harg3.read_unread, harg5.read_unread, harg6.read_unread, harg7.read_unread,
    View.ld_unit_zero (S := S1024x128) hz2, View.ld_unit_zero (S := S1024x1) hz2]

/-- At the diagonal column block the positive term receives the block's diagonal. -/
theorem pos_F (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i) (hc2 : ¬cond0_2 i) (hc3 : ¬cond0_3 i)
    (x0 : Vec F S1024x128 .f32) (x1 : Vec F S1024x128 .f32) (xs0 : Vec F S1024x1 .f32) (xs2 : Vec F S1024x1 .f32) :
    sout0_F_1 c i arg2 harg2 arg3 harg3 arg4 harg4 arg5 harg5 arg6 harg6 arg7 harg7 hc0 hc1 hc2 hc3 x0 x1 xs0 xs2 = k0_pay2 (k0_pay10 x0 x1) := by
  unfold sout0_F_1
  rw [View.read_writes_eq_canon _ _ _ (scover0_F_1 c i arg2 harg2 arg3 harg3 arg4 harg4 arg5 harg5 arg6 harg6 arg7 harg7 hc0 hc1 hc2 hc3 x0 x1 xs0 xs2)]
  unfold kernelRun0_F
  dsimp only
  (try sl_unfold_words)
  simp only [View.canon_unit_zero (S := S1024x1) hz2, View.canon_unit_zero (S := S1024) hz1, View.canon_cons_unit_zero (S := S1024x1) hz2,
    View.canon_cons_unit_zero (S := S1024) hz1, View.readCov_unit_zero (S := S1024x1) _ hz2, View.readAt_eq_ld,
    harg2.read_unread, harg3.read_unread, harg5.read_unread, harg6.read_unread, harg7.read_unread,
    View.ld_unit_zero (S := S1024x128) hz2, View.ld_unit_zero (S := S1024x1) hz2]

/-- For the last row block the rows' own copies sit in the last column block: the output receives the loss of the carried positive, of the self term just stored and of the row sum just completed. -/
theorem out_G (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : ¬cond0_1 i) (hc2 : cond0_2 i) (hc3 : cond0_3 i)
    (x0 : Vec F S1024x128 .f32) (x1 : Vec F S1024x128 .f32) (xs0 : Vec F S1024x1 .f32) (xs1 : Vec F S1024x1 .f32) :
    out0_G_2 c i arg2 harg2 arg3 harg3 arg4 harg4 arg5 harg5 arg6 harg6 arg7 harg7 hc0 hc1 hc2 hc3 x0 x1 xs0 xs1 = k0_pay4 xs1 (k0_pay3 (k0_pay10 x0 x1)) (k0_pay9 x0 x1 xs0) := by
  unfold out0_G_2
  rw [View.read_writes_eq_canon _ _ _ (cover0_G_2 c i arg2 harg2 arg3 harg3 arg4 harg4 arg5 harg5 arg6 harg6 arg7 harg7 hc0 hc1 hc2 hc3 x0 x1 xs0 xs1)]
  unfold kernelRun0_G
  dsimp only
  (try sl_unfold_words)
  simp only [View.canon_unit_zero (S := S1024x1) hz2, View.canon_unit_zero (S := S1024) hz1, View.canon_cons_unit_zero (S := S1024x1) hz2,
    View.canon_cons_unit_zero (S := S1024) hz1, View.readCov_unit_zero (S := S1024x1) _ hz2, View.readAt_eq_ld,
    harg2.read_unread, harg3.read_unread, harg5.read_unread, harg6.read_unread, harg7.read_unread,
    View.ld_unit_zero (S := S1024x128) hz2, View.ld_unit_zero (S := S1024x1) hz2]

/-- For the last row block at the last column block the running row sum is completed. -/
theorem rowsum_G (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : ¬cond0_1 i) (hc2 : cond0_2 i) (hc3 : cond0_3 i)
    (x0 : Vec F S1024x128 .f32) (x1 : Vec F S1024x128 .f32) (xs0 : Vec F S1024x1 .f32) (xs1 : Vec F S1024x1 .f32) :
    sout0_G_0 c i arg2 harg2 arg3 harg3 arg4 harg4 arg5 harg5 arg6 harg6 arg7 harg7 hc0 hc1 hc2 hc3 x0 x1 xs0 xs1 = k0_pay9 x0 x1 xs0 := by
  unfold sout0_G_0
  rw [View.read_writes_eq_canon _ _ _ (scover0_G_0 c i arg2 harg2 arg3 harg3 arg4 harg4 arg5 harg5 arg6 harg6 arg7 harg7 hc0 hc1 hc2 hc3 x0 x1 xs0 xs1)]
  unfold kernelRun0_G
  dsimp only
  (try sl_unfold_words)
  simp only [View.canon_unit_zero (S := S1024x1) hz2, View.canon_unit_zero (S := S1024) hz1, View.canon_cons_unit_zero (S := S1024x1) hz2,
    View.canon_cons_unit_zero (S := S1024) hz1, View.readCov_unit_zero (S := S1024x1) _ hz2, View.readAt_eq_ld,
    harg2.read_unread, harg3.read_unread, harg5.read_unread, harg6.read_unread, harg7.read_unread,
    View.ld_unit_zero (S := S1024x128) hz2, View.ld_unit_zero (S := S1024x1) hz2]

/-- For the last row block at the last column block the self term receives the block's diagonal. -/
theorem self_G (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : ¬cond0_1 i) (hc2 : cond0_2 i) (hc3 : cond0_3 i)
    (x0 : Vec F S1024x128 .f32) (x1 : Vec F S1024x128 .f32) (xs0 : Vec F S1024x1 .f32) (xs1 : Vec F S1024x1 .f32) :
    sout0_G_2 c i arg2 harg2 arg3 harg3 arg4 harg4 arg5 harg5 arg6 harg6 arg7 harg7 hc0 hc1 hc2 hc3 x0 x1 xs0 xs1 = k0_pay3 (k0_pay10 x0 x1) := by
  unfold sout0_G_2
  rw [View.read_writes_eq_canon _ _ _ (scover0_G_2 c i arg2 harg2 arg3 harg3 arg4 harg4 arg5 harg5 arg6 harg6 arg7 harg7 hc0 hc1 hc2 hc3 x0 x1 xs0 xs1)]
  unfold kernelRun0_G
  dsimp only
  (try sl_unfold_words)
  simp only [View.canon_unit_zero (S := S1024x1) hz2, View.canon_unit_zero (S := S1024) hz1, View.canon_cons_unit_zero (S := S1024x1) hz2,
    View.canon_cons_unit_zero (S := S1024) hz1, View.readCov_unit_zero (S := S1024x1) _ hz2, View.readAt_eq_ld,
    harg2.read_unread, harg3.read_unread, harg5.read_unread, harg6.read_unread, harg7.read_unread,
    View.ld_unit_zero (S := S1024x128) hz2, View.ld_unit_zero (S := S1024x1) hz2]

end Cert.KernelIdeal.CaseValues

end
-- ==== Proof.Loss.lean ====
/-
  The contrastive (InfoNCE) loss both programs compute, as one function of the two argument arrays
  `f`, `noise` : [8192, 128], written with plain finite sums over the extended reals.

  Row `c` of the stacked table `cat = [noise ; f]` (16384 rows) is row `c` of `noise` for `c < 8192` and row
  `c - 8192` of `f` otherwise. For a row `r` of `f` and a row `c` of `cat`,
      sim r c = exp ( <f r, cat c> / max (|f r| * |cat c|) eps ),
  the exponential of the clamped cosine similarity. The loss of row `r` is
      loss r = - log ( pos / ((sum_c sim r c) - pos - self + eps) ),
  with `pos = sim r r` (row `r` of `f` against row `r` of `noise`) and `self = sim r (r + 8192)` (row `r` of
  `f` against itself). The result of either program is the mean of `loss` over the 8192 rows.
-/
import Idealize.ShloMosaic.PureOps.Ideal
import Idealize.ShloMosaic.PureOps.Ideal.Laws
import Idealize.ShloMosaic.Lib.ValueIdx

noncomputable section

namespace Cert.InfoNCE

open Idealize.ShloMosaic Idealize.ShloMosaic.ValueIdx

/-- An [8192, 128] array of extended reals. -/
abbrev Feat : Type := (⟨2, ![8192, 128]⟩ : Shape).Idx → EReal

/-- The clamp of the cosine's denominator and the guard of the logarithm's: the f32 nearest to 1e-6. -/
def eps : EReal := Ideal.ofBits .f32 0x358637BD#32

/-- Entry `(c, k)` of the stacked table `[noise ; f]`. -/
def cat (f noise : Feat) (c : Fin 16384) (k : Fin 128) : EReal :=
  if h : c.val < 8192 then noise (ix2 ⟨c.val, h⟩ k) else f (ix2 ⟨c.val - 8192, by omega⟩ k)

/-- `exp` of the clamped cosine similarity of two rows given as functions of the feature index. -/
def simRows (a b : Fin 128 → EReal) : EReal :=
  Ideal.exp (Ideal.div (∑ k : Fin 128, a k * b k)
    (max (Ideal.sqrt (∑ k : Fin 128, a k * a k) * Ideal.sqrt (∑ k : Fin 128, b k * b k)) eps))

/-- `exp` of the clamped cosine similarity of row `r` of `f` and row `c` of the stacked table. -/
def sim (f noise : Feat) (r : Fin 8192) (c : Fin 16384) : EReal :=
  simRows (fun k => f (ix2 r k)) (cat f noise c)

/-- The loss term of a row from its positive, its self term and its row sum. -/
def lossOf (pos slf total : EReal) : EReal :=
  -(Ideal.log (Ideal.div pos ((total - pos - slf) + eps)))

/-- The loss of row `r`. -/
def loss (f noise : Feat) (r : Fin 8192) : EReal :=
  lossOf (sim f noise r ⟨r.val, by omega⟩) (sim f noise r ⟨r.val + 8192, by omega⟩)
    (∑ c : Fin 16384, sim f noise r c)

/-- The vector of the 8192 row losses. -/
def lossVec (f noise : Feat) : (⟨1, ![8192]⟩ : Shape).Idx → EReal := fun i => loss f noise (i 0)

end Cert.InfoNCE

end
-- ==== Proof.Stacked.lean ====
/-
  The stacked table `[noise ; f]` read at an index: the concatenation of the two [8192, 128] arrays along the
  row axis holds `noise`'s row `c` at a row `c < 8192` and `f`'s row `c - 8192` at a later one, which is
  the specification's `cat`.
-/
import proofs.«126366_j87290915323998_1_alg».proof.Proof.Loss
import Idealize.ShloMosaic.Lib.Pipeline.Value
import Idealize.ShloMosaic.Lib.ValueIdx

noncomputable section

namespace Cert.InfoNCE

open Idealize.ShloMosaic Idealize.ShloMosaic.ValueIdx

/-- Entry `(c, k)` of the concatenation of `noise` and `f` along the rows is `cat f noise c k`. -/
theorem stacked_apply (f noise : Feat)
    (h : Shape.Concatenates [(⟨2, ![8192, 128]⟩ : Shape), (⟨2, ![8192, 128]⟩ : Shape)] (⟨2, ![16384, 128]⟩ : Shape) 0)
    (c : Fin 16384) (k : Fin 128) :
    concatenate (⟨2, ![16384, 128]⟩ : Shape) 0 [⟨(⟨2, ![8192, 128]⟩ : Shape), noise⟩, ⟨(⟨2, ![8192, 128]⟩ : Shape), f⟩] h (ix2 c k)
      = cat f noise c k := by
  unfold cat
  by_cases hc : c.val < 8192
  · rw [dif_pos hc]
    exact concatenate_pair_apply_left 0 noise f h (ix2 c k) rfl (ix2 ⟨c.val, hc⟩ k)
      (fun b => by match b with | ⟨0, _⟩ => rfl | ⟨1, _⟩ => rfl)
  · rw [dif_neg hc]
    exact concatenate_pair_apply_right 0 noise f h (ix2 c k) rfl rfl (ix2 ⟨c.val - 8192, by omega⟩ k)
      (fun b hb => by match b with | ⟨0, _⟩ => exact absurd rfl hb | ⟨1, _⟩ => rfl)
      (by show c.val - 8192 + 8192 = c.val; omega)

end Cert.InfoNCE

end
-- ==== Proof.Blocks.lean ====
/-
  The two input blocks of a grid point read at an index. The grid point `t` is row block `t / 16` against column
  block `t % 16`. Window 0 fetches rows `1024 (t / 16) + p` of `f`; window 1 fetches rows `1024 (t % 16) + q`
  of the stacked table `[noise ; f]`, which the one host operation before the kernel builds by concatenation.
-/
import proofs.«126366_j87290915323998_1_alg».proof.Proof.Gen.KernelIdeal.Frame
import proofs.«126366_j87290915323998_1_alg».proof.Proof.Stacked
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx

namespace Cert.KernelIdeal.Blocks

open Cert.KernelIdeal Cert.KernelIdeal.Gen Cert.InfoNCE

variable (m : (ℓ : Loc nD τ sig) → Buf (Elt Ideal) ℓ)

/-- The argument `f` on core `c`, as launched. -/
abbrev fArr (c : Dev nD) : Feat := m ((c : Thread nD τ).loc main_arg0)
/-- The argument `noise` on core `c`, as launched. -/
abbrev noiseArr (c : Dev nD) : Feat := m ((c : Thread nD τ).loc main_arg1)

/-- The block indices of the three windows at a grid point: row block, column block, row block. -/
theorem index_f : ∀ t : Fin cfg0.N, win0_0.index t (0 : Fin 2) = t.val / 16 ∧ win0_0.index t (1 : Fin 2) = 0 :=
  (by decide +kernel : ∀ t : Fin grid0.N, win0_0.index t (0 : Fin 2) = t.val / 16 ∧ win0_0.index t (1 : Fin 2) = 0)
theorem index_cat : ∀ t : Fin cfg0.N, win0_1.index t (0 : Fin 2) = t.val % 16 ∧ win0_1.index t (1 : Fin 2) = 0 :=
  (by decide +kernel : ∀ t : Fin grid0.N, win0_1.index t (0 : Fin 2) = t.val % 16 ∧ win0_1.index t (1 : Fin 2) = 0)
theorem index_out : ∀ t : Fin cfg0.N, win0_2.index t (0 : Fin 1) = t.val / 16 :=
  (by decide +kernel : ∀ t : Fin grid0.N, win0_2.index t (0 : Fin 1) = t.val / 16)

/-- When the kernel starts, the stacked table holds the concatenation of `noise` and `f`. -/
theorem V_stacked (c : Dev nD) :
    (V m c main_v0 : S16384x128.Idx → EReal)
      = concatenate S16384x128 0 [⟨S8192x128, noiseArr m c⟩, ⟨S8192x128, fArr m c⟩] concatenates_S8192x128_S8192x128_S16384x128_d0 := by
  show StableHlo.after hostOps0 (fun b => m (c, b)) (Proc.devRef .tc main_v0) = _
  after_results

/-- Window 0's block at point `t`, entry `(p, k)`: row `1024 (t / 16) + p` of `f`. -/
theorem fblock_apply (c : Dev nD) (t : Fin cfg0.N) (p : Fin 1024) (k : Fin 128) (hR : t.val / 16 * 1024 + p.val < 8192) :
    (iblk m c 0 t : Vec Ideal S1024x128 .f32) (ix2 p k) = fArr m c (ix2 ⟨t.val / 16 * 1024 + p.val, hR⟩ k) := by
  unfold iblk
  rw [View.read_apply]
  show V m c main_arg0 _ = _
  rw [V_main_arg0]
  congr 1
  funext a
  apply Fin.ext
  match a with
  | ⟨0, _⟩ => show win0_0.index t 0 * 1024 + 1 * p.val = t.val / 16 * 1024 + p.val; rw [(index_f t).1]; omega
  | ⟨1, _⟩ => show win0_0.index t 1 * 128 + 1 * k.val = k.val; rw [(index_f t).2]; omega

/-- Window 1's block at point `t`, entry `(q, k)`: row `1024 (t % 16) + q` of the stacked table. -/
theorem cblock_apply (c : Dev nD) (t : Fin cfg0.N) (q : Fin 1024) (k : Fin 128) (hC : t.val % 16 * 1024 + q.val < 16384) :
    (iblk m c 1 t : Vec Ideal S1024x128 .f32) (ix2 q k) = cat (fArr m c) (noiseArr m c) ⟨t.val % 16 * 1024 + q.val, hC⟩ k := by
  unfold iblk
  rw [View.read_apply]
  show V m c main_v0 _ = _
  rw [V_stacked]
  refine Eq.trans ?_ (stacked_apply (fArr m c) (noiseArr m c) concatenates_S8192x128_S8192x128_S16384x128_d0 ⟨t.val % 16 * 1024 + q.val, hC⟩ k)
  congr 1
  funext a
  apply Fin.ext
  match a with
  | ⟨0, _⟩ => show win0_1.index t 0 * 1024 + 1 * q.val = t.val % 16 * 1024 + q.val; rw [(index_cat t).1]; omega
  | ⟨1, _⟩ => show win0_1.index t 1 * 128 + 1 * k.val = k.val; rw [(index_cat t).2]; omega

end Cert.KernelIdeal.Blocks

end
-- ==== Proof.Accum.lean ====
/-
  The row sum taken column block by column block. The kernel adds, for each of the 16 column blocks in turn, the sum
  of the 1024 similarities of the block to a running total that starts at zero; the reference sums the 16384
  similarities of the row at once. Addition on the extended reals is commutative and associative, so the two agree:
  the columns `j * 1024 + q`, `j < 16`, `q < 1024`, are all the columns below 16384, each once.
-/
import proofs.«126366_j87290915323998_1_alg».proof.Proof.Loss
import Mathlib.Algebra.BigOperators.Fin
import Mathlib.Logic.Equiv.Fin.Basic

noncomputable section

namespace Cert.InfoNCE

open Idealize.ShloMosaic Idealize.ShloMosaic.ValueIdx

variable (f noise : Feat)

/-- The similarity at natural-number coordinates (zero outside the table: never consulted). -/
def simN (R C : ℕ) : EReal := if h : R < 8192 ∧ C < 16384 then sim f noise ⟨R, h.1⟩ ⟨C, h.2⟩ else 0

theorem simN_eq (R : Fin 8192) (C : ℕ) (hC : C < 16384) : simN f noise R.val C = sim f noise R ⟨C, hC⟩ := by
  unfold simN; rw [dif_pos ⟨R.isLt, hC⟩]

/-- The sum of row `R`'s similarities over column block `j`. -/
def blockSum (R j : ℕ) : EReal := ∑ q : Fin 1024, simN f noise R (j * 1024 + q.val)

/-- The running row sum after column blocks `0 … j`. -/
def rowAcc (R j : ℕ) : EReal := ∑ j' ∈ Finset.range (j + 1), blockSum f noise R j'

theorem rowAcc_zero (R : ℕ) : rowAcc f noise R 0 = blockSum f noise R 0 := by
  unfold rowAcc; rw [Finset.sum_range_one]

theorem rowAcc_succ (R j : ℕ) : rowAcc f noise R (j + 1) = rowAcc f noise R j + blockSum f noise R (j + 1) := by
  unfold rowAcc; rw [Finset.sum_range_succ]

/-- After the last column block the running sum is the sum over all 16384 columns. -/
theorem rowAcc_last (R : Fin 8192) : rowAcc f noise R.val 15 = ∑ C : Fin 16384, sim f noise R C := by
  unfold rowAcc blockSum
  rw [Finset.sum_range (fun j' => ∑ q : Fin 1024, simN f noise R.val (j' * 1024 + q.val))]
  rw [← Fintype.sum_prod_type' (fun (j' : Fin 16) (q : Fin 1024) => simN f noise R.val (j'.val * 1024 + q.val))]
  refine Fintype.sum_equiv (finProdFinEquiv : Fin 16 × Fin 1024 ≃ Fin 16384) _ _ (fun x => ?_)
  have hx : x.1.val * 1024 + x.2.val < 16384 := by have := x.1.isLt; have := x.2.isLt; omega
  rw [simN_eq f noise R _ hx]
  congr 1
  apply Fin.ext
  show x.1.val * 1024 + x.2.val = x.2.val + 1024 * x.1.val
  omega

end Cert.InfoNCE

end
-- ==== Proof.BodyValues.lean ====
/-
  The values the kernel body stores, read at one index, at the ideal instance (a float is an extended real, every
  operation the exact one, a change of format the identity).

  The body holds a block `x0` of 1024 rows of `f` and a block `x1` of 1024 rows of the stacked table, 128 features each.
  * Entry `(p, q)` of the similarity tile is `exp (<x0 p, x1 q> / max (|x0 p| * |x1 q|) eps)`: the matrix product of `x0`
    with the transpose of `x1` into a zero accumulator is the sum over the 128 features of the products; a row's norm is the
    square root of the sum over the features of the squares, laid along a column and repeated along the rows (for `x0`), or
    transposed to a row and repeated down the columns (for `x1`).
  * The running row sum adds to what was stored the sum of the tile's row over its 1024 columns.
  * The diagonal read keeps entry `(p, q)` where `p = q` and puts zero elsewhere, so its row sum is entry `(p, p)`.
  * The last step forms `0 - log (pos / ((total - pos - self) + eps))` per row, which is the row's loss term.
  * The remaining stores are a column copy of a vector, or the zero column.
-/
import proofs.«126366_j87290915323998_1_alg».proof.Proof.Gen.KernelIdeal.Skeleton
import proofs.«126366_j87290915323998_1_alg».proof.Proof.Loss
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.BodyValues

open Cert.KernelIdeal Cert.KernelIdeal.Gen Idealize.ShloMosaic Idealize.ShloMosaic.ValueIdx

/-! ## Column forms of the layout operations, read at an index -/

section Column
variable {α : Type}

/-- A vector `[a]` cast to a column `[a, 1]` reads, at `(i, u)`, the vector at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to a vector `[a]` reads, at `i`, the column at `(i, 0)`. -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column `[a, 1]` repeated along the rows to `[a, b]` reads, at `(p, c)`, the column at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Column

/-! ## The operations of this body that are not pointwise, read at an index -/

/-- `exp` of a vector at an index. -/
theorem vexp_apply {s : Shape} (a : FVec Ideal s .f32) (i : s.Idx) : Idealize.ShloMosaic.exp a i = Ideal.exp (a i) := rfl
/-- `sqrt` of a vector at an index. -/
theorem vsqrt_apply {s : Shape} (a : FVec Ideal s .f32) (i : s.Idx) : Idealize.ShloMosaic.sqrt a i = Ideal.sqrt (a i) := rfl
/-- `log` of a vector at an index. -/
theorem vlog_apply {s : Shape} (a : FVec Ideal s .f32) (i : s.Idx) : Idealize.ShloMosaic.log a i = Ideal.log (a i) := rfl

/-- The sum along the 128 lanes of a `[1024, 128]` vector, at row `p`. -/
theorem laneSum128_apply (v : FVec Ideal S1024x128 .f32) (hφ : FKind.Formats .f32)
    (hacc : (0x00000000#32 : BitVec FTy.f32.bits) = 0x00000000#32) (p : Fin 1024) :
    multiReduction (F := Ideal) .add [1] S1024 v 0x00000000#32 reduces_S1024x128_S1024 hφ hacc (ix1 p)
      = ∑ k : Fin 128, v (ix2 p k) := by
  refine (Ideal.multiReduction_add_single v 0x00000000#32 reduces_S1024x128_S1024 hφ hacc (ix1 p)).trans ?_
  exact Finset.sum_congr rfl fun k _ => congrArg v (funext fun c => Fin.ext (by
    match c with
    | ⟨0, _⟩ => rfl
    | ⟨1, _⟩ => rfl))

/-- The sum along the 1024 lanes of a `[1024, 1024]` vector, at row `p`. -/
theorem laneSum1024_apply (v : FVec Ideal S1024x1024 .f32) (hφ : FKind.Formats .f32)
    (hacc : (0x00000000#32 : BitVec FTy.f32.bits) = 0x00000000#32) (p : Fin 1024) :
    multiReduction (F := Ideal) .add [1] S1024 v 0x00000000#32 reduces_S1024x1024_S1024 hφ hacc (ix1 p)
      = ∑ q : Fin 1024, v (ix2 p q) := by
  refine (Ideal.multiReduction_add_single v 0x00000000#32 reduces_S1024x1024_S1024 hφ hacc (ix1 p)).trans ?_
  exact Finset.sum_congr rfl fun k _ => congrArg v (funext fun c => Fin.ext (by
    match c with
    | ⟨0, _⟩ => rfl
    | ⟨1, _⟩ => rfl))

/-- A `[1024]` vector cast to a column reads its entry `p` at `(p, u)`. -/
theorem col_apply (w : FVec Ideal S1024 .f32) (p : Fin 1024) (u : Fin 1) :
    shapeCast S1024x1 w shapeCasts_S1024_S1024x1 (ix2 p u) = w (ix1 p) :=
  shapeCast_a_a1_apply w shapeCasts_S1024_S1024x1 p u

/-- A column cast to a `[1024]` vector reads the column's entry `(p, 0)` at `p`. -/
theorem uncol_apply (w : FVec Ideal S1024x1 .f32) (p : Fin 1024) :
    shapeCast S1024 w shapeCasts_S1024x1_S1024 (ix1 p) = w (ix2 p (0 : Fin 1)) :=
  shapeCast_a1_a_apply w shapeCasts_S1024x1_S1024 p

/-- A column repeated along the rows of the tile reads, at `(p, q)`, the column at `(p, 0)`. -/
theorem colBcast_apply (w : FVec Ideal S1024x1 .f32) (p q : Fin 1024) :
    broadcastTo S1024x1024 w broadcasts_S1024x1_S1024x1024 (ix2 p q) = w (ix2 p (0 : Fin 1)) :=
  broadcastTo_a1_ab_apply w broadcasts_S1024x1_S1024x1024 p q

/-- A row repeated down the columns of the tile reads, at `(p, q)`, the row at `(0, q)`. -/
theorem rowBcast_apply (w : FVec Ideal S1x1024 .f32) (p q : Fin 1024) :
    broadcastTo S1024x1024 w broadcasts_S1x1024_S1024x1024 (ix2 p q) = w (ix2 (0 : Fin 1) q) :=
  broadcastTo_1b_ab_apply w broadcasts_S1x1024_S1024x1024 p q

/-- A column transposed to a row reads, at `(u, q)`, the column at `(q, u)`. -/
theorem colT_apply (w : FVec Ideal S1024x1 .f32) (u : Fin 1) (q : Fin 1024) :
    transpose S1x1024 [1, 0] w transposes_S1024x1_p1_0_S1x1024 (ix2 u q) = w (ix2 q u) :=
  transpose_ix2_apply w transposes_S1024x1_p1_0_S1x1024 u q

/-- The block transposed reads, at `(k, q)`, the block at `(q, k)`. -/
theorem blockT_apply (w : FVec Ideal S1024x128 .bf16) (k : Fin 128) (q : Fin 1024) :
    transpose S128x1024 [1, 0] w transposes_S1024x128_p1_0_S128x1024 (ix2 k q) = w (ix2 q k) :=
  transpose_ix2_apply w transposes_S1024x128_p1_0_S128x1024 k q

/-- A same-shape cast of a block is the block. -/
theorem block_self (w : FVec Ideal S1024x128 .f32) :
    shapeCast S1024x128 w shapeCasts_S1024x128_S1024x128 = w := shapeCast_self w _

/-- A same-shape cast of a column is the column. -/
theorem col_self (w : FVec Ideal S1024x1 .f32) :
    shapeCast S1024x1 w shapeCasts_S1024x1_S1024x1 = w := shapeCast_self w _

/-! ## The matrix product read at an index -/

theorem dot_lhs0 (i : S1024x1024.Idx) (c : dot_S1024x128_S128x1024_S1024x1024_1_0_0_1_n_n.contr.Idx) : (dot_S1024x128_S128x1024_S1024x1024_1_0_0_1_n_n.lhsIdx i c 0).val = (i 0).val := by
  unfold DotDims.lhsIdx
  rw [dif_neg (show ¬(0 : Fin S1024x128.rank) ∈ dot_S1024x128_S128x1024_S1024x1024_1_0_0_1_n_n.lhsBatch by decide),
    dif_pos (show (0 : Fin S1024x128.rank) ∈ dot_S1024x128_S128x1024_S1024x1024_1_0_0_1_n_n.lhsNonContracting by decide)]
  rfl
theorem dot_lhs1 (i : S1024x1024.Idx) (c : dot_S1024x128_S128x1024_S1024x1024_1_0_0_1_n_n.contr.Idx) :
    (dot_S1024x128_S128x1024_S1024x1024_1_0_0_1_n_n.lhsIdx i c 1).val = (c ⟨0, by decide⟩).val :=
  dot_S1024x128_S128x1024_S1024x1024_1_0_0_1_n_n.lhsIdx_val_of_single rfl i c
theorem dot_rhs0 (i : S1024x1024.Idx) (c : dot_S1024x128_S128x1024_S1024x1024_1_0_0_1_n_n.contr.Idx) :
    (dot_S1024x128_S128x1024_S1024x1024_1_0_0_1_n_n.rhsIdx i c 0).val = (c ⟨0, by decide⟩).val :=
  dot_S1024x128_S128x1024_S1024x1024_1_0_0_1_n_n.rhsIdx_val_of_single rfl i c
theorem dot_rhs1 (i : S1024x1024.Idx) (c : dot_S1024x128_S128x1024_S1024x1024_1_0_0_1_n_n.contr.Idx) : (dot_S1024x128_S128x1024_S1024x1024_1_0_0_1_n_n.rhsIdx i c 1).val = (i 1).val := by
  unfold DotDims.rhsIdx
  rw [dif_neg (show ¬(1 : Fin S128x1024.rank) ∈ dot_S1024x128_S128x1024_S1024x1024_1_0_0_1_n_n.rhsBatch by decide),
    dif_pos (show (1 : Fin S128x1024.rank) ∈ dot_S1024x128_S128x1024_S1024x1024_1_0_0_1_n_n.rhsNonContracting by decide)]
  rfl

/-- The product of a block `a` with a `[128, 1024]` operand `b` into a zero accumulator: at `(p, q)` the sum over the
    128 features of `a (p, k) * b (k, q)`. -/
theorem dot_apply (a : FVec Ideal S1024x128 .bf16) (b : FVec Ideal S128x1024 .bf16) (p q : Fin 1024) :
    FloatOps.matmul dot_S1024x128_S128x1024_S1024x1024_1_0_0_1_n_n none a b (constant (F := Ideal) S1024x1024 .f32 0x00000000#32) (ix2 p q)
      = ∑ k : Fin 128, a (ix2 p k) * b (ix2 k q) := by
  rw [Ideal.matmul_constant_zero_apply, ← Equiv.sum_comp (contrEquiv1 dot_S1024x128_S128x1024_S1024x1024_1_0_0_1_n_n 128 rfl rfl).symm]
  refine Finset.sum_congr rfl fun k _ => ?_
  have hk := contrEquiv1_symm_val dot_S1024x128_S128x1024_S1024x1024_1_0_0_1_n_n 128 rfl rfl k
  have el : dot_S1024x128_S128x1024_S1024x1024_1_0_0_1_n_n.lhsIdx (ix2 p q) ((contrEquiv1 dot_S1024x128_S128x1024_S1024x1024_1_0_0_1_n_n 128 rfl rfl).symm k) = ix2 p k :=
    funext fun c => Fin.ext (by
      match c with
      | ⟨0, _⟩ => exact dot_lhs0 _ _
      | ⟨1, _⟩ => exact (dot_lhs1 _ _).trans hk)
  have er : dot_S1024x128_S128x1024_S1024x1024_1_0_0_1_n_n.rhsIdx (ix2 p q) ((contrEquiv1 dot_S1024x128_S128x1024_S1024x1024_1_0_0_1_n_n 128 rfl rfl).symm k) = ix2 k q :=
    funext fun c => Fin.ext (by
      match c with
      | ⟨0, _⟩ => exact (dot_rhs0 _ _).trans hk
      | ⟨1, _⟩ => exact dot_rhs1 _ _)
  rw [el, er]

/-- The product of a block `a` with the transpose of a block `b` into a zero accumulator: at `(p, q)` the sum over the
    128 features of `a (p, k) * b (q, k)`, the inner product of row `p` of `a` and row `q` of `b`. -/
theorem dotT_apply (a b : FVec Ideal S1024x128 .bf16) (p q : Fin 1024) :
    FloatOps.matmul dot_S1024x128_S128x1024_S1024x1024_1_0_0_1_n_n none a (transpose S128x1024 [1, 0] b transposes_S1024x128_p1_0_S128x1024)
        (constant (F := Ideal) S1024x1024 .f32 0x00000000#32) (ix2 p q)
      = ∑ k : Fin 128, a (ix2 p k) * b (ix2 q k) :=
  (dot_apply a _ p q).trans (Finset.sum_congr rfl fun k _ => congrArg (a (ix2 p k) * ·) (blockT_apply b k q))

/-! ## The similarity tile -/

/-- Entry `(p, q)` of the tile is `exp` of the clamped cosine similarity of row `p` of `x0` and row `q` of `x1`. -/
theorem pay8_apply (x0 x1 : Vec Ideal S1024x128 .f32) (p q : Fin 1024) :
    k0_pay8 (F := Ideal) x0 x1 (ix2 p q)
      = Cert.InfoNCE.simRows (fun k => x0 (ix2 p k)) (fun k => x1 (ix2 q k)) := by
  unfold k0_pay8 Cert.InfoNCE.simRows Cert.InfoNCE.eps
  simp only [vexp_apply, divf_apply, maximumf_apply, mulf_apply, broadcast_apply, matmul,
    colBcast_apply, rowBcast_apply, vsqrt_apply, col_apply, block_self]
  rw [dotT_apply, colT_apply, vsqrt_apply, col_apply, laneSum128_apply, laneSum128_apply]
  simp only [mulf_apply, truncf_apply]
  rfl

/-! ## The running row sum -/

/-- The stored row sum at row `p` is what was loaded there plus the sum of the tile's row `p` over its 1024 columns. -/
theorem pay9_apply (x0 x1 : Vec Ideal S1024x128 .f32) (v26 : Vec Ideal S1024x1 .f32) (p : Fin 1024) :
    k0_pay9 (F := Ideal) x0 x1 v26 (ix2 p 0)
      = v26 (ix2 p 0) + ∑ q : Fin 1024, Cert.InfoNCE.simRows (fun k => x0 (ix2 p k)) (fun k => x1 (ix2 q k)) := by
  unfold k0_pay9
  simp only [col_self, addf_apply, col_apply]
  rw [laneSum1024_apply]
  simp only [pay8_apply]

/-! ## The diagonal of the tile -/

/-- Two coordinates below 1024, as 32-bit words, are equal words exactly when they are equal. -/
theorem diag_select (p q : Fin 1024) (A B : EReal) :
    Scalar.select (IntOp.cmpi .eq (BitVec.ofNat 32 p.val) (BitVec.ofNat 32 q.val)) A B = if q = p then A else B := by
  by_cases h : q = p
  · subst h
    rw [IntOp.cmpi_eq.mpr rfl, select_one, if_pos rfl]
  · have hne : ¬ IntOp.cmpi .eq (BitVec.ofNat 32 p.val) (BitVec.ofNat 32 q.val) = 1#1 := fun e => by
      have e' := congrArg BitVec.toNat (IntOp.cmpi_eq.mp e)
      simp only [BitVec.toNat_ofNat] at e'
      have hp := p.isLt; have hq := q.isLt
      rw [Nat.mod_eq_of_lt (by omega), Nat.mod_eq_of_lt (by omega)] at e'
      exact h (Fin.ext e'.symm)
    rw [eq_zero_of_ne_one hne, select_zero, if_neg h]

/-- The tile masked to its diagonal: entry `(p, q)` is the tile's where `q = p`, zero elsewhere. -/
theorem diagMask_apply (T : FVec Ideal S1024x1024 .f32) (p q : Fin 1024) :
    select (cmpi .eq (iota .tc S1024x1024 32 [0] iota_S1024x1024_d0_w32) (iota .tc S1024x1024 32 [1] iota_S1024x1024_d1_w32))
        T (broadcast S1024x1024 (Scalar.ofBits (F := Ideal) .f32 0x00000000#32)) (ix2 p q)
      = if q = p then T (ix2 p q) else 0 := by
  show Scalar.select (IntOp.cmpi .eq (iota .tc S1024x1024 32 [0] iota_S1024x1024_d0_w32 (ix2 p q))
      (iota .tc S1024x1024 32 [1] iota_S1024x1024_d1_w32 (ix2 p q))) (T (ix2 p q)) (Ideal.ofBits .f32 0x00000000#32) = _
  rw [iota_single_apply, iota_single_apply, Ideal.ofBits_zero_f32]
  exact diag_select p q _ _

/-- The row sum of the masked tile at row `p` is the tile's diagonal entry `(p, p)`. -/
theorem pay10_apply (x0 x1 : Vec Ideal S1024x128 .f32) (p : Fin 1024) :
    k0_pay10 (F := Ideal) x0 x1 (ix1 p)
      = Cert.InfoNCE.simRows (fun k => x0 (ix2 p k)) (fun k => x1 (ix2 p k)) := by
  unfold k0_pay10
  refine (laneSum1024_apply _ _ _ p).trans ?_
  refine (Finset.sum_congr rfl fun q _ => diagMask_apply _ p q).trans ?_
  rw [Finset.sum_ite_eq' Finset.univ p, if_pos (Finset.mem_univ p)]
  exact pay8_apply x0 x1 p p

/-! ## The column copies and the zero columns -/

/-- The stored column is the vector, entry `p` at `(p, 0)`. -/
theorem pay2_apply (v38 : FVec Ideal S1024 .f32) (p : Fin 1024) : k0_pay2 (F := Ideal) v38 (ix2 p 0) = v38 (ix1 p) := by
  simp only [k0_pay2, k0_pay1, col_self, col_apply]

/-- The stored column is the vector, entry `p` at `(p, 0)`. -/
theorem pay3_apply (v38 : FVec Ideal S1024 .f32) (p : Fin 1024) : k0_pay3 (F := Ideal) v38 (ix2 p 0) = v38 (ix1 p) := by
  simp only [k0_pay3, k0_pay1, col_self, col_apply]

/-- The stored column is zero. -/
theorem pay5_apply (p : Fin 1024) : k0_pay5 (F := Ideal) (ix2 p 0) = 0 := by
  simp only [k0_pay5, col_self, broadcast_apply]
  exact Ideal.ofBits_zero_f32

/-- The stored column is zero. -/
theorem pay6_apply (p : Fin 1024) : k0_pay6 (F := Ideal) (ix2 p 0) = 0 := by
  simp only [k0_pay6, col_self, broadcast_apply]
  exact Ideal.ofBits_zero_f32

/-- The stored column is zero. -/
theorem pay7_apply (p : Fin 1024) : k0_pay7 (F := Ideal) (ix2 p 0) = 0 := by
  simp only [k0_pay7, col_self, broadcast_apply]
  exact Ideal.ofBits_zero_f32

/-! ## The row's loss term -/

/-- The stored vector at row `p` is `0 - log (pos / ((total - pos - self) + eps))`, the loss term of the row. -/
theorem pay4_apply (v50 v51 v52 : Vec Ideal S1024x1 .f32) (p : Fin 1024) :
    k0_pay4 (F := Ideal) v50 v51 v52 (ix1 p)
      = Cert.InfoNCE.lossOf (v50 (ix2 p 0)) (v51 (ix2 p 0)) (v52 (ix2 p 0)) := by
  unfold k0_pay4 Cert.InfoNCE.lossOf Cert.InfoNCE.eps
  refine (uncol_apply _ p).trans ?_
  simp only [subf_apply, vlog_apply, divf_apply, addf_apply, broadcast_apply]
  show Ideal.ofBits .f32 0x00000000#32 - _ = _
  rw [Ideal.ofBits_zero_f32, zero_sub]
  rfl

end Cert.KernelIdeal.BodyValues

end
-- ==== Proof.RowState.lean ====
/-
  What the three carried buffers hold after every grid point, and what the output block receives at the last column
  block of a row block. Point `t` is row block `i = t / 16` against column block `j = t % 16`. For row `p` of
  the block, that is row `R = 1024 i + p` of `f`: after the point the running row sum holds the sum of the
  similarities of row `R` over column blocks `0 … j`; the positive term holds `sim R R` once column block `i`
  has been met (zero before); the self term holds `sim R (R + 8192)` once column block `i + 8` has been met (zero
  before). At `j = 15` both have been met (`i ≤ 7`) and the row sum is complete, so the output block receives the
  row's loss. By induction on the point over the seven control cases.
-/
import proofs.«126366_j87290915323998_1_alg».proof.Proof.CaseValues
import proofs.«126366_j87290915323998_1_alg».proof.Proof.Blocks
import proofs.«126366_j87290915323998_1_alg».proof.Proof.Accum
import proofs.«126366_j87290915323998_1_alg».proof.Proof.BodyValues

set_option maxRecDepth 16384

noncomputable section

open Idealize.ShloMosaic Idealize.ShloMosaic.TcCoe Idealize.SL.Sem Idealize.ShloMosaic.ValueIdx

namespace Cert.KernelIdeal.RowState

open Cert.KernelIdeal Cert.KernelIdeal.Gen Cert.InfoNCE Cert.KernelIdeal.Blocks Cert.KernelIdeal.BodyValues
  Cert.KernelIdeal.CaseValues

variable (m : (ℓ : Loc nD τ sig) → Buf (Elt Ideal) ℓ)

/-- What the point before `t` left (the outputs' block, then the three carried buffers). -/
abbrev prev (c : Dev nD) (t : Fin cfg0.N) :=
  outsAt0 m c (t.val - 1) (Nat.lt_of_le_of_lt (Nat.sub_le _ _) t.isLt)

/-! ## Each case's state in terms of the state before -/

theorem state_A (c : Dev nD) (t : Fin cfg0.N) (h0 : t.val % 16 = 0) (h1 : t.val % 17 = 0) (h2 : ¬t.val % 17 = 8) (h3 : ¬t.val % 16 = 15) :
    (outsAt0 m c t.val t.isLt).2.1 = k0_pay9 (F := Ideal) (iblk m c 0 t) (iblk m c 1 t) (k0_pay5 (F := Ideal))
    ∧ (outsAt0 m c t.val t.isLt).2.2.1 = k0_pay2 (F := Ideal) (k0_pay10 (F := Ideal) (iblk m c 0 t) (iblk m c 1 t))
    ∧ (outsAt0 m c t.val t.isLt).2.2.2 = k0_pay7 (F := Ideal) := by
  have e := outsAt0_A m c t h0 h1 h2 h3
  have e1 := congrArg (fun s => s.2.1) e
  have e2 := congrArg (fun s => s.2.2.1) e
  have e3 := congrArg (fun s => s.2.2.2) e
  dsimp only at e1 e2 e3
  exact ⟨e1.trans (rowsum_A (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) ((hcond0_1 t).mpr h1) (fun h => h2 ((hcond0_2 t).mp h)) (fun h => h3 ((hcond0_3 t).mp h)) (iblk m c 0 t) (iblk m c 1 t) ),
    e2.trans (pos_A (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) ((hcond0_1 t).mpr h1) (fun h => h2 ((hcond0_2 t).mp h)) (fun h => h3 ((hcond0_3 t).mp h)) (iblk m c 0 t) (iblk m c 1 t) ),
    e3.trans (self_A (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) ((hcond0_1 t).mpr h1) (fun h => h2 ((hcond0_2 t).mp h)) (fun h => h3 ((hcond0_3 t).mp h)) (iblk m c 0 t) (iblk m c 1 t) )⟩

theorem state_B (c : Dev nD) (t : Fin cfg0.N) (h0 : ¬t.val % 16 = 0) (h1 : ¬t.val % 17 = 0) (h2 : ¬t.val % 17 = 8) (h3 : ¬t.val % 16 = 15) :
    (outsAt0 m c t.val t.isLt).2.1 = k0_pay9 (F := Ideal) (iblk m c 0 t) (iblk m c 1 t) (prev m c t).2.1
    ∧ (outsAt0 m c t.val t.isLt).2.2.1 = (prev m c t).2.2.1
    ∧ (outsAt0 m c t.val t.isLt).2.2.2 = (prev m c t).2.2.2 := by
  have e := outsAt0_B m c t h0 h1 h2 h3
  have e1 := congrArg (fun s => s.2.1) e
  have e2 := congrArg (fun s => s.2.2.1) e
  have e3 := congrArg (fun s => s.2.2.2) e
  dsimp only at e1 e2 e3
  exact ⟨e1.trans (rowsum_B (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (fun h => h2 ((hcond0_2 t).mp h)) (fun h => h3 ((hcond0_3 t).mp h)) (iblk m c 0 t) (iblk m c 1 t) (prev m c t).2.1 (prev m c t).2.2.1 (prev m c t).2.2.2),
    e2,
    e3⟩

theorem state_C (c : Dev nD) (t : Fin cfg0.N) (h0 : ¬t.val % 16 = 0) (h1 : ¬t.val % 17 = 0) (h2 : t.val % 17 = 8) (h3 : ¬t.val % 16 = 15) :
    (outsAt0 m c t.val t.isLt).2.1 = k0_pay9 (F := Ideal) (iblk m c 0 t) (iblk m c 1 t) (prev m c t).2.1
    ∧ (outsAt0 m c t.val t.isLt).2.2.1 = (prev m c t).2.2.1
    ∧ (outsAt0 m c t.val t.isLt).2.2.2 = k0_pay3 (F := Ideal) (k0_pay10 (F := Ideal) (iblk m c 0 t) (iblk m c 1 t)) := by
  have e := outsAt0_C m c t h0 h1 h2 h3
  have e1 := congrArg (fun s => s.2.1) e
  have e2 := congrArg (fun s => s.2.2.1) e
  have e3 := congrArg (fun s => s.2.2.2) e
  dsimp only at e1 e2 e3
  exact ⟨e1.trans (rowsum_C (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (prev m c t).2.1 (prev m c t).2.2.1),
    e2,
    e3.trans (self_C (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (prev m c t).2.1 (prev m c t).2.2.1)⟩

theorem state_D (c : Dev nD) (t : Fin cfg0.N) (h0 : ¬t.val % 16 = 0) (h1 : ¬t.val % 17 = 0) (h2 : ¬t.val % 17 = 8) (h3 : t.val % 16 = 15) :
    (outsAt0 m c t.val t.isLt).2.1 = k0_pay9 (F := Ideal) (iblk m c 0 t) (iblk m c 1 t) (prev m c t).2.1
    ∧ (outsAt0 m c t.val t.isLt).2.2.1 = (prev m c t).2.2.1
    ∧ (outsAt0 m c t.val t.isLt).2.2.2 = (prev m c t).2.2.2
    ∧ (outsAt0 m c t.val t.isLt).1 = k0_pay4 (F := Ideal) (prev m c t).2.2.1 (prev m c t).2.2.2 (k0_pay9 (F := Ideal) (iblk m c 0 t) (iblk m c 1 t) (prev m c t).2.1) := by
  have e := outsAt0_D m c t h0 h1 h2 h3
  have e1 := congrArg (fun s => s.2.1) e
  have e2 := congrArg (fun s => s.2.2.1) e
  have e3 := congrArg (fun s => s.2.2.2) e
  have e4 := congrArg (fun s => s.1) e
  dsimp only at e1 e2 e3 e4
  exact ⟨e1.trans (rowsum_D (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (fun h => h2 ((hcond0_2 t).mp h)) ((hcond0_3 t).mpr h3) (iblk m c 0 t) (iblk m c 1 t) (prev m c t).2.1 (prev m c t).2.2.1 (prev m c t).2.2.2),
    e2,
    e3,
    e4.trans (out_D (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (fun h => h2 ((hcond0_2 t).mp h)) ((hcond0_3 t).mpr h3) (iblk m c 0 t) (iblk m c 1 t) (prev m c t).2.1 (prev m c t).2.2.1 (prev m c t).2.2.2)⟩

theorem state_E (c : Dev nD) (t : Fin cfg0.N) (h0 : t.val % 16 = 0) (h1 : ¬t.val % 17 = 0) (h2 : ¬t.val % 17 = 8) (h3 : ¬t.val % 16 = 15) :
    (outsAt0 m c t.val t.isLt).2.1 = k0_pay9 (F := Ideal) (iblk m c 0 t) (iblk m c 1 t) (k0_pay5 (F := Ideal))
    ∧ (outsAt0 m c t.val t.isLt).2.2.1 = k0_pay6 (F := Ideal)
    ∧ (outsAt0 m c t.val t.isLt).2.2.2 = k0_pay7 (F := Ideal) := by
  have e := outsAt0_E m c t h0 h1 h2 h3
  have e1 := congrArg (fun s => s.2.1) e
  have e2 := congrArg (fun s => s.2.2.1) e
  have e3 := congrArg (fun s => s.2.2.2) e
  dsimp only at e1 e2 e3
  exact ⟨e1.trans (rowsum_E (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) (fun h => h2 ((hcond0_2 t).mp h)) (fun h => h3 ((hcond0_3 t).mp h)) (iblk m c 0 t) (iblk m c 1 t) ),
    e2.trans (pos_E (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) (fun h => h2 ((hcond0_2 t).mp h)) (fun h => h3 ((hcond0_3 t).mp h)) (iblk m c 0 t) (iblk m c 1 t) ),
    e3.trans (self_E (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) (fun h => h2 ((hcond0_2 t).mp h)) (fun h => h3 ((hcond0_3 t).mp h)) (iblk m c 0 t) (iblk m c 1 t) )⟩

theorem state_F (c : Dev nD) (t : Fin cfg0.N) (h0 : ¬t.val % 16 = 0) (h1 : t.val % 17 = 0) (h2 : ¬t.val % 17 = 8) (h3 : ¬t.val % 16 = 15) :
    (outsAt0 m c t.val t.isLt).2.1 = k0_pay9 (F := Ideal) (iblk m c 0 t) (iblk m c 1 t) (prev m c t).2.1
    ∧ (outsAt0 m c t.val t.isLt).2.2.1 = k0_pay2 (F := Ideal) (k0_pay10 (F := Ideal) (iblk m c 0 t) (iblk m c 1 t))
    ∧ (outsAt0 m c t.val t.isLt).2.2.2 = (prev m c t).2.2.2 := by
  have e := outsAt0_F m c t h0 h1 h2 h3
  have e1 := congrArg (fun s => s.2.1) e
  have e2 := congrArg (fun s => s.2.2.1) e
  have e3 := congrArg (fun s => s.2.2.2) e
  dsimp only at e1 e2 e3
  exact ⟨e1.trans (rowsum_F (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (fun h => h2 ((hcond0_2 t).mp h)) (fun h => h3 ((hcond0_3 t).mp h)) (iblk m c 0 t) (iblk m c 1 t) (prev m c t).2.1 (prev m c t).2.2.2),
    e2.trans (pos_F (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (fun h => h2 ((hcond0_2 t).mp h)) (fun h => h3 ((hcond0_3 t).mp h)) (iblk m c 0 t) (iblk m c 1 t) (prev m c t).2.1 (prev m c t).2.2.2),
    e3⟩

theorem state_G (c : Dev nD) (t : Fin cfg0.N) (h0 : ¬t.val % 16 = 0) (h1 : ¬t.val % 17 = 0) (h2 : t.val % 17 = 8) (h3 : t.val % 16 = 15) :
    (outsAt0 m c t.val t.isLt).2.1 = k0_pay9 (F := Ideal) (iblk m c 0 t) (iblk m c 1 t) (prev m c t).2.1
    ∧ (outsAt0 m c t.val t.isLt).2.2.1 = (prev m c t).2.2.1
    ∧ (outsAt0 m c t.val t.isLt).2.2.2 = k0_pay3 (F := Ideal) (k0_pay10 (F := Ideal) (iblk m c 0 t) (iblk m c 1 t))
    ∧ (outsAt0 m c t.val t.isLt).1 = k0_pay4 (F := Ideal) (prev m c t).2.2.1 (k0_pay3 (F := Ideal) (k0_pay10 (F := Ideal) (iblk m c 0 t) (iblk m c 1 t))) (k0_pay9 (F := Ideal) (iblk m c 0 t) (iblk m c 1 t) (prev m c t).2.1) := by
  have e := outsAt0_G m c t h0 h1 h2 h3
  have e1 := congrArg (fun s => s.2.1) e
  have e2 := congrArg (fun s => s.2.2.1) e
  have e3 := congrArg (fun s => s.2.2.2) e
  have e4 := congrArg (fun s => s.1) e
  dsimp only at e1 e2 e3 e4
  exact ⟨e1.trans (rowsum_G (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) ((hcond0_3 t).mpr h3) (iblk m c 0 t) (iblk m c 1 t) (prev m c t).2.1 (prev m c t).2.2.1),
    e2,
    e3.trans (self_G (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) ((hcond0_3 t).mpr h3) (iblk m c 0 t) (iblk m c 1 t) (prev m c t).2.1 (prev m c t).2.2.1),
    e4.trans (out_G (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) ((hcond0_3 t).mpr h3) (iblk m c 0 t) (iblk m c 1 t) (prev m c t).2.1 (prev m c t).2.2.1)⟩

/-! ## The blocks' similarities -/

theorem row_lt (t : Fin cfg0.N) (p : Fin 1024) : t.val / 16 * 1024 + p.val < 8192 := by
  have := t.isLt; have h : cfg0.N = 128 := N_0; have := p.isLt; omega

theorem col_lt (t : Fin cfg0.N) (q : Fin 1024) : t.val % 16 * 1024 + q.val < 16384 := by
  have := q.isLt; omega

/-- Row `p` of the `f` block against row `q` of the table block at point `t`: the similarity of row
    `1024 (t / 16) + p` of `f` and row `1024 (t % 16) + q` of the stacked table. -/
theorem simRows_blocks (c : Dev nD) (t : Fin cfg0.N) (p q : Fin 1024) :
    simRows (fun k => (iblk m c 0 t : Vec Ideal S1024x128 .f32) (ix2 p k)) (fun k => (iblk m c 1 t : Vec Ideal S1024x128 .f32) (ix2 q k))
      = simN (fArr m c) (noiseArr m c) (t.val / 16 * 1024 + p.val) (t.val % 16 * 1024 + q.val) := by
  have e0 : (fun k => (iblk m c 0 t : Vec Ideal S1024x128 .f32) (ix2 p k))
      = fun k => fArr m c (ix2 ⟨t.val / 16 * 1024 + p.val, row_lt t p⟩ k) :=
    funext fun k => fblock_apply m c t p k (row_lt t p)
  have e1 : (fun k => (iblk m c 1 t : Vec Ideal S1024x128 .f32) (ix2 q k))
      = cat (fArr m c) (noiseArr m c) ⟨t.val % 16 * 1024 + q.val, col_lt t q⟩ :=
    funext fun k => cblock_apply m c t q k (col_lt t q)
  rw [e0, e1]
  exact (simN_eq (fArr m c) (noiseArr m c) ⟨t.val / 16 * 1024 + p.val, row_lt t p⟩ _ (col_lt t q)).symm

section Step

variable (f noise : Feat) (I J : ℕ) (x0 x1 : Vec Ideal S1024x128 .f32)
  (hx : ∀ p q : Fin 1024, simRows (fun k => x0 (ix2 p k)) (fun k => x1 (ix2 q k)) = simN f noise (I * 1024 + p.val) (J * 1024 + q.val))

include hx

/-- The running row sum's update: the block's row sum is added to the accumulator. -/
theorem rowsum_step (acc : Vec Ideal S1024x1 .f32) (p : Fin 1024) :
    k0_pay9 (F := Ideal) x0 x1 acc (ix2 p 0) = acc (ix2 p 0) + blockSum f noise (I * 1024 + p.val) J := by
  rw [pay9_apply]
  unfold blockSum
  congr 1
  exact Finset.sum_congr rfl fun q _ => hx p q

/-- The block's diagonal: row `p` against row `p`. -/
theorem diag_step (p : Fin 1024) :
    k0_pay10 (F := Ideal) x0 x1 (ix1 p) = simN f noise (I * 1024 + p.val) (J * 1024 + p.val) := by
  rw [pay10_apply]
  exact hx p p

end Step

/-! ## The invariant -/

/-- After point `n`: the running row sum, the positive term and the self term of every row of the row block. -/
def Good (c : Dev nD) (n : ℕ) (h : n < cfg0.N) : Prop :=
  ∀ p : Fin 1024,
    (outsAt0 m c n h).2.1 (ix2 p 0) = rowAcc (fArr m c) (noiseArr m c) (n / 16 * 1024 + p.val) (n % 16)
    ∧ (outsAt0 m c n h).2.2.1 (ix2 p 0)
        = (if n / 16 ≤ n % 16 then simN (fArr m c) (noiseArr m c) (n / 16 * 1024 + p.val) (n / 16 * 1024 + p.val) else 0)
    ∧ (outsAt0 m c n h).2.2.2 (ix2 p 0)
        = (if n / 16 + 8 ≤ n % 16 then simN (fArr m c) (noiseArr m c) (n / 16 * 1024 + p.val) (n / 16 * 1024 + p.val + 8192) else 0)

/-- The running row sum's update at point `t`, from the accumulator's value. -/
theorem rowsum_at (c : Dev nD) (t : Fin cfg0.N) (acc : Vec Ideal S1024x1 .f32) (p : Fin 1024) :
    k0_pay9 (F := Ideal) (iblk m c 0 t) (iblk m c 1 t) acc (ix2 p 0)
      = acc (ix2 p 0) + blockSum (fArr m c) (noiseArr m c) (t.val / 16 * 1024 + p.val) (t.val % 16) :=
  rowsum_step (fArr m c) (noiseArr m c) (t.val / 16) (t.val % 16) (iblk m c 0 t) (iblk m c 1 t) (simRows_blocks m c t) acc p

/-- The block's diagonal at point `t`. -/
theorem diag_at (c : Dev nD) (t : Fin cfg0.N) (p : Fin 1024) :
    k0_pay10 (F := Ideal) (iblk m c 0 t) (iblk m c 1 t) (ix1 p)
      = simN (fArr m c) (noiseArr m c) (t.val / 16 * 1024 + p.val) (t.val % 16 * 1024 + p.val) :=
  diag_step (fArr m c) (noiseArr m c) (t.val / 16) (t.val % 16) (iblk m c 0 t) (iblk m c 1 t) (simRows_blocks m c t) p

theorem good (c : Dev nD) : ∀ (n : ℕ) (h : n < cfg0.N), Good m c n h
  | 0, h => by
    intro p
    obtain ⟨e0, e1, e2⟩ := state_A m c ⟨0, h⟩ rfl rfl (by show ¬(0 % 17 = 8); decide) (by show ¬(0 % 16 = 15); decide)
    refine ⟨?_, ?_, ?_⟩
    · rw [e0, rowsum_at, pay5_apply, zero_add]
      exact (rowAcc_zero (fArr m c) (noiseArr m c) _).symm
    · rw [e1, pay2_apply, diag_at]
      rfl
    · rw [e2, pay7_apply]
      rfl
  | n + 1, h => by
    have hN : cfg0.N = 128 := N_0
    have ih := good c n (Nat.lt_of_succ_lt h)
    intro p
    obtain ⟨i0, i1, i2⟩ := ih p
    have i0' : (prev m c ⟨n + 1, h⟩).2.1 (ix2 p 0) = _ := i0
    have i1' : (prev m c ⟨n + 1, h⟩).2.2.1 (ix2 p 0) = _ := i1
    have i2' : (prev m c ⟨n + 1, h⟩).2.2.2 (ix2 p 0) = _ := i2
    by_cases h0 : (n + 1) % 16 = 0
    · -- column block 0 of a later row block: reset
      have h1 : ¬(n + 1) % 17 = 0 := by omega
      have h2 : ¬(n + 1) % 17 = 8 := by omega
      have h3 : ¬(n + 1) % 16 = 15 := by omega
      obtain ⟨e0, e1, e2⟩ := state_E m c ⟨n + 1, h⟩ h0 h1 h2 h3
      refine ⟨?_, ?_, ?_⟩
      · rw [e0, rowsum_at, pay5_apply, zero_add]
        show blockSum (fArr m c) (noiseArr m c) ((n + 1) / 16 * 1024 + p.val) ((n + 1) % 16) = _
        rw [h0]
        exact (rowAcc_zero (fArr m c) (noiseArr m c) _).symm
      · rw [e1, pay6_apply, if_neg (by omega)]
      · rw [e2, pay7_apply, if_neg (by omega)]
    · have hi : (n + 1) / 16 = n / 16 := by omega
      have hj : (n + 1) % 16 = n % 16 + 1 := by omega
      have hrs : ∀ acc : Vec Ideal S1024x1 .f32, acc (ix2 p 0) = rowAcc (fArr m c) (noiseArr m c) (n / 16 * 1024 + p.val) (n % 16) →
          k0_pay9 (F := Ideal) (iblk m c 0 ⟨n + 1, h⟩) (iblk m c 1 ⟨n + 1, h⟩) acc (ix2 p 0)
            = rowAcc (fArr m c) (noiseArr m c) ((n + 1) / 16 * 1024 + p.val) ((n + 1) % 16) := by
        intro acc hacc
        rw [rowsum_at, hacc]
        show _ + blockSum (fArr m c) (noiseArr m c) ((n + 1) / 16 * 1024 + p.val) ((n + 1) % 16) = _
        rw [hi, hj, rowAcc_succ]
      have hdiag : k0_pay10 (F := Ideal) (iblk m c 0 ⟨n + 1, h⟩) (iblk m c 1 ⟨n + 1, h⟩) (ix1 p)
          = simN (fArr m c) (noiseArr m c) ((n + 1) / 16 * 1024 + p.val) ((n + 1) % 16 * 1024 + p.val) := diag_at m c ⟨n + 1, h⟩ p
      by_cases h1 : (n + 1) % 17 = 0
      · -- the diagonal column block: the positive term is stored
        have h2 : ¬(n + 1) % 17 = 8 := by omega
        have h3 : ¬(n + 1) % 16 = 15 := by omega
        obtain ⟨e0, e1, e2⟩ := state_F m c ⟨n + 1, h⟩ h0 h1 h2 h3
        refine ⟨?_, ?_, ?_⟩
        · rw [e0]; exact hrs _ i0'
        · rw [e1, pay2_apply, hdiag, if_pos (by omega), show (n + 1) % 16 = (n + 1) / 16 from by omega]
        · rw [e2, i2', hi, hj, if_neg (by omega), if_neg (by omega)]
      · by_cases h2 : (n + 1) % 17 = 8
        · by_cases h3 : (n + 1) % 16 = 15
          · -- the last row block at the last column block: the self term is stored
            obtain ⟨e0, e1, e2, _⟩ := state_G m c ⟨n + 1, h⟩ h0 h1 h2 h3
            refine ⟨?_, ?_, ?_⟩
            · rw [e0]; exact hrs _ i0'
            · rw [e1, i1', hi, hj, if_pos (by omega), if_pos (by omega)]
            · rw [e2, pay3_apply, hdiag, if_pos (by omega), show (n + 1) % 16 = (n + 1) / 16 + 8 from by omega]
              congr 1; omega
          · -- the column block of the rows' own copies: the self term is stored
            obtain ⟨e0, e1, e2⟩ := state_C m c ⟨n + 1, h⟩ h0 h1 h2 h3
            refine ⟨?_, ?_, ?_⟩
            · rw [e0]; exact hrs _ i0'
            · rw [e1, i1', hi, hj, if_pos (by omega), if_pos (by omega)]
            · rw [e2, pay3_apply, hdiag, if_pos (by omega), show (n + 1) % 16 = (n + 1) / 16 + 8 from by omega]
              congr 1; omega
        · by_cases h3 : (n + 1) % 16 = 15
          · -- the last column block of an earlier row block
            obtain ⟨e0, e1, e2, _⟩ := state_D m c ⟨n + 1, h⟩ h0 h1 h2 h3
            refine ⟨?_, ?_, ?_⟩
            · rw [e0]; exact hrs _ i0'
            · rw [e1, i1', hi, hj, if_pos (by omega), if_pos (by omega)]
            · rw [e2, i2', hi, hj, if_pos (by omega), if_pos (by omega)]
          · -- an ordinary point
            obtain ⟨e0, e1, e2⟩ := state_B m c ⟨n + 1, h⟩ h0 h1 h2 h3
            refine ⟨?_, ?_, ?_⟩
            · rw [e0]; exact hrs _ i0'
            · rw [e1, i1', hi, hj]
              by_cases hc : n / 16 ≤ n % 16
              · rw [if_pos hc, if_pos (by omega)]
              · rw [if_neg hc, if_neg (by omega)]
            · rw [e2, i2', hi, hj]
              by_cases hc : n / 16 + 8 ≤ n % 16
              · rw [if_pos hc, if_pos (by omega)]
              · rw [if_neg hc, if_neg (by omega)]

/-! ## The output block -/

/-- At the last column block of a row block the output block receives, for each row, the loss of that row. -/
theorem out_at (c : Dev nD) (t : Fin cfg0.N) (h3 : t.val % 16 = 15) (p : Fin 1024) :
    (outsAt0 m c t.val t.isLt).1 (ix1 p) = loss (fArr m c) (noiseArr m c) ⟨t.val / 16 * 1024 + p.val, row_lt t p⟩ := by
  have hN : cfg0.N = 128 := N_0
  have ht := t.isLt
  have h0 : ¬t.val % 16 = 0 := by omega
  have h1 : ¬t.val % 17 = 0 := by omega
  obtain ⟨g0, g1, g2⟩ := good m c t.val t.isLt p
  have key : (outsAt0 m c t.val t.isLt).1
      = k0_pay4 (F := Ideal) (outsAt0 m c t.val t.isLt).2.2.1 (outsAt0 m c t.val t.isLt).2.2.2 (outsAt0 m c t.val t.isLt).2.1 := by
    by_cases h2 : t.val % 17 = 8
    · obtain ⟨e0, e1, e2, e3⟩ := state_G m c t h0 h1 h2 h3
      rw [e3, e0, e1, e2]
    · obtain ⟨e0, e1, e2, e3⟩ := state_D m c t h0 h1 h2 h3
      rw [e3, e0, e1, e2]
  rw [key, pay4_apply, g0, g1, g2, if_pos (by omega), if_pos (by omega)]
  unfold loss
  rw [h3, rowAcc_last (fArr m c) (noiseArr m c) ⟨t.val / 16 * 1024 + p.val, row_lt t p⟩,
    simN_eq (fArr m c) (noiseArr m c) ⟨t.val / 16 * 1024 + p.val, row_lt t p⟩ _ (by have := row_lt t p; omega),
    simN_eq (fArr m c) (noiseArr m c) ⟨t.val / 16 * 1024 + p.val, row_lt t p⟩ _ (by have := row_lt t p; omega)]

end Cert.KernelIdeal.RowState

end
-- ==== Proof.KernelValue.lean ====
/-
  The kernel's result. Every row block's losses are written back once, after its last column block, and those eight
  blocks of 1024 rows fill the [8192] array: so after the kernel that array is the vector of the 8192 row losses. The
  three host operations after the kernel then take its mean: the sum from zero, divided by 8192.
-/
import proofs.«126366_j87290915323998_1_alg».proof.Proof.RowState
import Idealize.ShloMosaic.Lib.Pipeline.Value
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.InfoNCE Cert.KernelIdeal.Blocks Cert.KernelIdeal.RowState

variable (m : (ℓ : Loc nD τ sig) → Buf (Elt Ideal) ℓ) (ρ : Dev nD → PrngReg)

/-- The output block after the last column block of row block `t / 16`: the losses of its 1024 rows. -/
theorem out_vec (c : Dev nD) (t : Fin cfg0.N) (h3 : t.val % 16 = 15) :
    (outsAt0 m c t.val t.isLt).1
      = fun j : S1024.Idx => loss (fArr m c) (noiseArr m c) ⟨t.val / 16 * 1024 + (j 0).val, row_lt t (j 0)⟩ := by
  funext j
  have hj : j = ix1 (j 0) := eq_ix1 j
  rw [hj]
  exact out_at m c t h3 (j 0)

/-- What a write-back writes is the block of the loss vector at the row block. -/
theorem flushed_eq (c : Dev nD) (t : Fin cfg0.N) (hf : (cfg0.win 2).flush t = true) :
    (dats m 0 c).flushed 2 t = ((cfg0.win 2).blk t).view.read (Elt Ideal) (lossVec (fArr m c) (noiseArr m c)) := by
  have h3 : t.val % 16 = 15 := (flush0_2 t).mp hf
  show (cfg0.win 2).cut (grid0.coords t) ((dats m 0 c).after 2 t) = _
  rw [after0_2, out_vec m c t h3]
  funext j
  rw [View.read_apply]
  unfold lossVec
  dsimp only
  refine congrArg (loss (fArr m c) (noiseArr m c)) (Fin.ext ?_)
  show t.val / 16 * 1024 + (j 0).val = win0_2.index t (0 : Fin 1) * 1024 + 1 * (j 0).val
  rw [index_out t]
  omega

/-- Row `R` lies in the block written back after the last column block of row block `R / 1024`. -/
theorem cover (i : S8192.Idx) : ∃ t : Fin cfg0.N, (cfg0.win 2).flush t = true ∧ i ∈ ((cfg0.win 2).blk t).view.set := by
  have hN : cfg0.N = 128 := N_0
  have hi : (i 0).val < 8192 := (i 0).isLt
  have ht : (i 0).val / 1024 * 16 + 15 < cfg0.N := by omega
  have hx : win0_2.index ⟨(i 0).val / 1024 * 16 + 15, ht⟩ (0 : Fin 1) = (i 0).val / 1024 := by
    rw [index_out]
    show ((i 0).val / 1024 * 16 + 15) / 16 = _
    omega
  refine ⟨⟨(i 0).val / 1024 * 16 + 15, ht⟩, (flush0_2 _).mpr (by show ((i 0).val / 1024 * 16 + 15) % 16 = 15; omega), ?_⟩
  show i ∈ ((View.whole main_v1).slice (win0_2.rect ⟨(i 0).val / 1024 * 16 + 15, ht⟩)).set
  rw [View.set_slice_whole, Rect.mem_set_unit]
  intro a
  match a with
  | ⟨0, _⟩ =>
    show win0_2.index ⟨(i 0).val / 1024 * 16 + 15, ht⟩ (0 : Fin 1) * 1024 ≤ (i 0).val
      ∧ (i 0).val < win0_2.index ⟨(i 0).val / 1024 * 16 + 15, ht⟩ (0 : Fin 1) * 1024 + 1024
    rw [hx]
    omega

/-- After the kernel the [8192] array holds the row losses. -/
theorem final_out (c : Dev nD) : (dats m 0 c).arrAt 2 cfg0.N = lossVec (fArr m c) (noiseArr m c) :=
  (dats m 0 c).arrAt_eq_of_cover 2 (lossVec (fArr m c) (noiseArr m c)) (flushed_eq m c) cover

/-- The mean of an [8192] vector as the host computes it: its sum from zero, divided by 8192. -/
def meanOf (v : S8192.Idx → EReal) : S_.Idx → EReal :=
  Host.divf (F := Ideal) (Host.reduceAdd (F := Ideal) v (constant (F := Ideal) S_ .f32 0x00000000#32) reducesTo_S8192_S_d0 h_S_)
    (constant (F := Ideal) S_ .f32 0x46000000#32)

/-- The program's result: the mean of the row losses. -/
theorem tail_eq (c : Dev nD) :
    Pipeline.afterTail₀ cfgs (dats m) 0 (V0 m) [hostOps1] c main_v3 = meanOf (lossVec (fArr m c) (noiseArr m c)) := by
  unfold Pipeline.afterTail₀
  show StableHlo.after hostOps1 _ (Proc.devRef .tc main_v3) = _
  after_results
  rw [(Pipeline.withArrays_arr spec0 launch0.win.arr_inj c _ _ 2).trans (final_out m c)]
  rfl

/-- The run, read: the result at the mean of the row losses, the arguments unchanged. -/
theorem run : θ_run defs (onTc (τ := τ) (main (F := Ideal))) ⟨m, fun _ => 0, ρ⟩ fun r => ∀ c : Dev nD,
      r.2.mem ((c : Thread nD τ).loc main_v3) = meanOf (lossVec (fArr m c) (noiseArr m c))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v3 (Pipeline.mem_restRefs_of main_v3 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.KernelIdeal.Result

end
-- ==== Proof.RefLoss.lean ====
/-
  The reference program's vector of row losses is the specification's `lossVec`.

  Every operation of the reference is read at one index. The stacked table `[noise ; f]` read at row `c` is row `c` of
  `noise` below 8192 and row `c - 8192` of `f` from there on; the product of `f` with the transposed table at `(r, c)` is the
  inner product of row `r` of `f` and row `c` of the table; the two norms are square roots of sums of squares (a sum that
  starts from the zero word starts from 0); so the exponential of the clamped quotient at `(r, c)` is `sim r c`.
  The two gathers read that matrix at `(r, r)` and at `(r, r + 8192)`: their start indices are the row number and the
  row number plus 8192, each passed through "add the extent if negative", which leaves a non-negative number as it is,
  and a start index inside the matrix is not moved by the gather's clamp.
-/
import proofs.«126366_j87290915323998_1_alg».proof.Proof.RefReadP
import proofs.«126366_j87290915323998_1_alg».proof.Proof.Loss
import Idealize.ShloMosaic.Lib.Pipeline.Value
import Idealize.ShloMosaic.Lib.ValueIdx
import Idealize.ShloMosaic.PureOps.Ideal.Laws

noncomputable section

namespace Cert.InfoNCE.Ref

open Cert.ReferenceIdeal Cert.ReferenceIdeal.Gen Cert.ReferenceIdeal.ReadP Idealize.ShloMosaic Idealize.ShloMosaic.TcCoe
  Idealize.SL.Sem Idealize.ShloMosaic.StableHlo Idealize.ShloMosaic.ValueIdx Cert.InfoNCE

/-! ## Words -/

/-- A number below `2 ^ 31`, written as a 32-bit word and read back signed, is that number. -/
theorem toInt_word (n : Nat) (h : n < 2 ^ 31) : (BitVec.ofNat 32 n).toInt = (n : Int) := by
  have hn : (BitVec.ofNat 32 n).toNat = n := by rw [BitVec.toNat_ofNat]; exact Nat.mod_eq_of_lt (by omega)
  rw [BitVec.toInt_eq_toNat_cond, hn]
  split <;> omega

/-- A word that is not negative when read signed fails the test "below zero", so a select on that test returns its
    second operand. -/
theorem select_below_zero {α : Type} (x : BitVec 32) (a b : α) (h : 0 ≤ x.toInt) :
    Scalar.select (IntOp.cmpi .slt x 0#32) a b = b := by
  have hlt : x.slt 0#32 = false := by
    simp only [BitVec.slt, BitVec.toInt_zero, decide_eq_false_iff_not, Int.not_lt]
    exact h
  show (if BitVec.ofBool (x.slt 0#32) = 1 then a else b) = b
  rw [hlt]
  rfl

/-! ## The stacked table, the norms, the inner products, the similarities -/

/-- The stacked table at `(c, k)`: `noise` at row `c` below 8192, `f` at row `c - 8192` from there on. -/
theorem cat_read (f noise : Feat) (c : Fin 16384) (k : Fin 128) :
    val_main_v0 (F := Ideal) f noise (ix2 c k) = cat f noise c k := by
  have hc := c.isLt
  unfold val_main_v0 cat
  split
  · next h =>
    exact concatenate_pair_apply_left (t := S16384x128) (s₁ := S8192x128) (s₂ := S8192x128) 0 noise f
      concatenates_S8192x128_S8192x128_S16384x128_d0 (ix2 c k) rfl (ix2 ⟨c.val, h⟩ k)
      (fun b => match b with | ⟨0, _⟩ => rfl | ⟨1, _⟩ => rfl)
  · next h =>
    exact concatenate_pair_apply_right (t := S16384x128) (s₁ := S8192x128) (s₂ := S8192x128) 0 noise f
      concatenates_S8192x128_S8192x128_S16384x128_d0 (ix2 c k) rfl rfl (ix2 ⟨c.val - 8192, by omega⟩ k)
      (fun b hb => match b, hb with | ⟨0, _⟩, hb => absurd rfl hb | ⟨1, _⟩, _ => rfl)
      (by show c.val - 8192 + 8192 = c.val; omega)

/-- The norm of row `r` of `f`. -/
theorem norm_f_read (f : Feat) (r : Fin 8192) :
    val_main_v1 (F := Ideal) f (ix1 r) = Ideal.sqrt (∑ k : Fin 128, f (ix2 r k) * f (ix2 r k)) := by
  rw [val_main_v1_apply, val_main_call0_v1_apply, val_main_call0_cst_apply, Ideal.hostUnary_sqrt_def, Ideal.ofBits_def,
    Ideal.ofBits_zero_f32, zero_add]
  refine congrArg Ideal.sqrt (Finset.sum_congr rfl fun k _ => ?_)
  have e : idx_main_call0_v1 (ix1 r) k = ix2 r k :=
    funext fun a => Fin.ext (by match a with | ⟨0, _⟩ => rfl | ⟨1, _⟩ => rfl)
  rw [val_main_call0_v0_apply, e]
  rfl

/-- The norm of row `c` of the stacked table. -/
theorem norm_cat_read (f noise : Feat) (c : Fin 16384) :
    val_main_v2 (F := Ideal) f noise (ix1 c) = Ideal.sqrt (∑ k : Fin 128, cat f noise c k * cat f noise c k) := by
  rw [val_main_v2_apply, val_main_call1_v1_apply, val_main_call1_cst_apply, Ideal.hostUnary_sqrt_def, Ideal.ofBits_def,
    Ideal.ofBits_zero_f32, zero_add]
  refine congrArg Ideal.sqrt (Finset.sum_congr rfl fun k _ => ?_)
  have e : idx_main_call1_v1 (ix1 c) k = ix2 c k :=
    funext fun a => Fin.ext (by match a with | ⟨0, _⟩ => rfl | ⟨1, _⟩ => rfl)
  rw [val_main_call1_v0_apply, e, cat_read]
  rfl

/-- The product with the transposed table at `(r, c)`: the inner product of row `r` of `f` and row `c` of the table. -/
theorem dot_read (f noise : Feat) (r : Fin 8192) (c : Fin 16384) :
    val_main_v4 (F := Ideal) f noise (ix2 r c) = ∑ k : Fin 128, f (ix2 r k) * cat f noise c k := by
  rw [val_main_v4_apply]
  refine Finset.sum_congr rfl fun k _ => ?_
  have el : lidx_main_v4 (ix2 r c) k = ix2 r k :=
    funext fun a => Fin.ext (by match a with | ⟨0, _⟩ => rfl | ⟨1, _⟩ => rfl)
  have er : idx_main_v3 (ridx_main_v4 (ix2 r c) k) = ix2 c k :=
    funext fun a => Fin.ext (by match a with | ⟨0, _⟩ => rfl | ⟨1, _⟩ => rfl)
  rw [val_main_v3_apply, el, er, cat_read]

/-- The matrix of exponentials at `(r, c)` is the similarity of row `r` of `f` and row `c` of the table. -/
theorem sim_read (f noise : Feat) (r : Fin 8192) (c : Fin 16384) :
    val_main_v13 (F := Ideal) f noise (ix2 r c) = sim f noise r c := by
  have e7 : idx_main_v5 (idx_main_v7 (ix2 r c)) = ix1 r :=
    funext fun a => Fin.ext (by match a with | ⟨0, _⟩ => rfl)
  have e8 : idx_main_v6 (idx_main_v8 (ix2 r c)) = ix1 c :=
    funext fun a => Fin.ext (by match a with | ⟨0, _⟩ => rfl)
  rw [val_main_v13_apply, val_main_v12_apply, val_main_v11_apply, val_main_v9_apply, val_main_v7_apply,
    val_main_v5_apply, val_main_v8_apply, val_main_v6_apply, val_main_v10_apply, val_main_cst_apply, e7, e8,
    norm_f_read, norm_cat_read, dot_read]
  rfl

/-! ## The start indices of the two gathers -/

/-- The row counter at `r` is the word of `r`. -/
theorem iota_read (r : Fin 8192) : val_main_v14 (F := Ideal) (ix1 r) = BitVec.ofNat 32 r.val := rfl

/-- The row counter is never negative, so "add 8192 if negative" leaves it as it is. -/
theorem v19_read (r : Fin 8192) : val_main_v19 (F := Ideal) (ix1 r) = BitVec.ofNat 32 r.val := by
  have hr := r.isLt
  rw [val_main_v19_apply, val_main_v16_apply, val_main_v15_apply, val_main_c_apply, iota_read]
  exact select_below_zero _ _ _ (by rw [toInt_word _ (by omega)]; omega)

/-- The same with 16384 in place of 8192. -/
theorem v24_read (r : Fin 8192) : val_main_v24 (F := Ideal) (ix1 r) = BitVec.ofNat 32 r.val := by
  have hr := r.isLt
  rw [val_main_v24_apply, val_main_v21_apply, val_main_v20_apply, val_main_c_1_apply, iota_read]
  exact select_below_zero _ _ _ (by rw [toInt_word _ (by omega)]; omega)

/-- The same once more, in the second gather's row component. -/
theorem v35_read (r : Fin 8192) : val_main_v35 (F := Ideal) (ix1 r) = BitVec.ofNat 32 r.val := by
  have hr := r.isLt
  rw [val_main_v35_apply, val_main_v32_apply, val_main_v31_apply, val_main_c_4_apply, iota_read]
  exact select_below_zero _ _ _ (by rw [toInt_word _ (by omega)]; omega)

/-- The row counter plus 8192 is the word of `r + 8192`. -/
theorem v30_read (r : Fin 8192) : val_main_v30 (F := Ideal) (ix1 r) = BitVec.ofNat 32 (r.val + 8192) := by
  rw [val_main_v30_apply, val_main_v29_apply, val_main_c_3_apply, iota_read]
  exact (BitVec.ofNat_add r.val 8192).symm

/-- It is not negative either, so "add 16384 if negative" leaves it as it is. -/
theorem v40_read (r : Fin 8192) : val_main_v40 (F := Ideal) (ix1 r) = BitVec.ofNat 32 (r.val + 8192) := by
  have hr := r.isLt
  rw [val_main_v40_apply, val_main_v37_apply, val_main_v36_apply, val_main_c_6_apply, v30_read]
  exact select_below_zero _ _ _ (by rw [toInt_word _ (by omega)]; omega)

/-- The first gather's start indices at row `r`: the row component is `r` … -/
theorem v27_col0 (r : Fin 8192) : val_main_v27 (F := Ideal) (ix2 r (0 : Fin 2)) = BitVec.ofNat 32 r.val := by
  unfold val_main_v27
  refine (concatenate_pair_apply_left (t := S8192x2) (s₁ := S8192x1) (s₂ := S8192x1) 1 _ _
    concatenates_S8192x1_S8192x1_S8192x2_d1 (ix2 r (0 : Fin 2)) rfl (ix2 r (0 : Fin 1))
    (fun b => match b with | ⟨0, _⟩ => rfl | ⟨1, _⟩ => rfl)).trans ?_
  have e : idx_main_v25 (ix2 r (0 : Fin 1)) = ix1 r := funext fun a => Fin.ext (by match a with | ⟨0, _⟩ => rfl)
  rw [val_main_v25_apply, e, v19_read]

/-- … and the column component is `r` too. -/
theorem v27_col1 (r : Fin 8192) : val_main_v27 (F := Ideal) (ix2 r (1 : Fin 2)) = BitVec.ofNat 32 r.val := by
  unfold val_main_v27
  refine (concatenate_pair_apply_right (t := S8192x2) (s₁ := S8192x1) (s₂ := S8192x1) 1 _ _
    concatenates_S8192x1_S8192x1_S8192x2_d1 (ix2 r (1 : Fin 2)) rfl rfl (ix2 r (0 : Fin 1))
    (fun b hb => match b, hb with | ⟨0, _⟩, _ => rfl | ⟨1, _⟩, hb => absurd rfl hb) rfl).trans ?_
  have e : idx_main_v26 (ix2 r (0 : Fin 1)) = ix1 r := funext fun a => Fin.ext (by match a with | ⟨0, _⟩ => rfl)
  rw [val_main_v26_apply, e, v24_read]

/-- The second gather's start indices at row `r`: the row component is `r` … -/
theorem v43_col0 (r : Fin 8192) : val_main_v43 (F := Ideal) (ix2 r (0 : Fin 2)) = BitVec.ofNat 32 r.val := by
  unfold val_main_v43
  refine (concatenate_pair_apply_left (t := S8192x2) (s₁ := S8192x1) (s₂ := S8192x1) 1 _ _
    concatenates_S8192x1_S8192x1_S8192x2_d1 (ix2 r (0 : Fin 2)) rfl (ix2 r (0 : Fin 1))
    (fun b => match b with | ⟨0, _⟩ => rfl | ⟨1, _⟩ => rfl)).trans ?_
  have e : idx_main_v41 (ix2 r (0 : Fin 1)) = ix1 r := funext fun a => Fin.ext (by match a with | ⟨0, _⟩ => rfl)
  rw [val_main_v41_apply, e, v35_read]

/-- … and the column component is `r + 8192`. -/
theorem v43_col1 (r : Fin 8192) : val_main_v43 (F := Ideal) (ix2 r (1 : Fin 2)) = BitVec.ofNat 32 (r.val + 8192) := by
  unfold val_main_v43
  refine (concatenate_pair_apply_right (t := S8192x2) (s₁ := S8192x1) (s₂ := S8192x1) 1 _ _
    concatenates_S8192x1_S8192x1_S8192x2_d1 (ix2 r (1 : Fin 2)) rfl rfl (ix2 r (0 : Fin 1))
    (fun b hb => match b, hb with | ⟨0, _⟩, _ => rfl | ⟨1, _⟩, hb => absurd rfl hb) rfl).trans ?_
  have e : idx_main_v42 (ix2 r (0 : Fin 1)) = ix1 r := funext fun a => Fin.ext (by match a with | ⟨0, _⟩ => rfl)
  rw [val_main_v42_apply, e, v40_read]

/-! ## A gather of single elements at start indices inside the matrix -/

/-- The gather of one element per row of start indices (both axes collapsed, slice sizes 1 × 1), read at row `r`:
    when the two start indices of that row, read signed, are the numbers `a < 8192` and `b < 16384`, the clamp to
    `[0, 8191] × [0, 16383]` does not move them and the result is the matrix's element `(a, b)`. -/
theorem gather_at {α : Type} (x : S8192x16384.Idx → α) (idx : IVec S8192x2 32) (r : Fin 8192) (a : Fin 8192)
    (b : Fin 16384) (h0 : (idx (ix2 r (0 : Fin 2))).toInt.toNat = a.val)
    (h1 : (idx (ix2 r (1 : Fin 2))).toInt.toNat = b.val) :
    Host.gather gather_S8192x16384_S8192x2_S8192_n_01_n_n_01_1_11 x idx (ix1 r) = x (ix2 a b) := by
  have ha := a.isLt
  have hb := b.isLt
  unfold Host.gather
  congr 1
  funext ax
  refine Fin.ext ?_
  match ax with
  | ⟨0, _⟩ =>
    have hm : (0 : Fin S8192x16384.rank) ∈ gather_S8192x16384_S8192x2_S8192_n_01_n_n_01_1_11.startIndexMap :=
      List.mem_cons_self
    show gather_S8192x16384_S8192x2_S8192_n_01_n_n_01_1_11.start (ix1 r) idx 0
      + gather_S8192x16384_S8192x2_S8192_n_01_n_n_01_1_11.batchCoord (ix1 r) 0
      + gather_S8192x16384_S8192x2_S8192_n_01_n_n_01_1_11.offCoord (ix1 r) 0 = a.val
    rw [GatherDims.batchCoord_eq_zero _ _ _ List.not_mem_nil,
      GatherDims.offCoord_eq_zero _ _ _ (fun h => ((GatherDims.mem_sKept _ _).mp h).1 List.mem_cons_self)]
    simp only [Nat.add_zero]
    unfold GatherDims.start
    rw [dif_pos hm]
    have hsi : gather_S8192x16384_S8192x2_S8192_n_01_n_n_01_1_11.siIdx (ix1 r)
        ⟨List.idxOf (0 : Fin S8192x16384.rank) gather_S8192x16384_S8192x2_S8192_n_01_n_n_01_1_11.startIndexMap,
          List.idxOf_lt_length_iff.2 hm⟩ = ix2 r (0 : Fin 2) := by
      funext d; refine Fin.ext ?_
      match d with
      | ⟨0, _⟩ => rfl
      | ⟨1, _⟩ => rfl
    rw [hsi, h0]
    show min a.val (8192 - 1) = a.val
    omega
  | ⟨1, _⟩ =>
    have hm : (1 : Fin S8192x16384.rank) ∈ gather_S8192x16384_S8192x2_S8192_n_01_n_n_01_1_11.startIndexMap :=
      List.mem_cons_of_mem _ List.mem_cons_self
    show gather_S8192x16384_S8192x2_S8192_n_01_n_n_01_1_11.start (ix1 r) idx 1
      + gather_S8192x16384_S8192x2_S8192_n_01_n_n_01_1_11.batchCoord (ix1 r) 1
      + gather_S8192x16384_S8192x2_S8192_n_01_n_n_01_1_11.offCoord (ix1 r) 1 = b.val
    rw [GatherDims.batchCoord_eq_zero _ _ _ List.not_mem_nil,
      GatherDims.offCoord_eq_zero _ _ _ (fun h => ((GatherDims.mem_sKept _ _).mp h).1
        (List.mem_cons_of_mem _ List.mem_cons_self))]
    simp only [Nat.add_zero]
    unfold GatherDims.start
    rw [dif_pos hm]
    have hsi : gather_S8192x16384_S8192x2_S8192_n_01_n_n_01_1_11.siIdx (ix1 r)
        ⟨List.idxOf (1 : Fin S8192x16384.rank) gather_S8192x16384_S8192x2_S8192_n_01_n_n_01_1_11.startIndexMap,
          List.idxOf_lt_length_iff.2 hm⟩ = ix2 r (1 : Fin 2) := by
      funext d; refine Fin.ext ?_
      match d with
      | ⟨0, _⟩ => rfl
      | ⟨1, _⟩ => rfl
    rw [hsi, h1]
    show min b.val (16384 - 1) = b.val
    omega

/-- The first gather at row `r` reads the positive: the similarity of row `r` of `f` and row `r` of `noise`. -/
theorem pos_read (f noise : Feat) (r : Fin 8192) :
    val_main_v28 (F := Ideal) f noise (ix1 r) = sim f noise r ⟨r.val, by omega⟩ := by
  have hr := r.isLt
  unfold val_main_v28
  rw [gather_at _ _ r r ⟨r.val, by omega⟩
    (by rw [v27_col0, toInt_word _ (by omega)]; rfl) (by rw [v27_col1, toInt_word _ (by omega)]; rfl)]
  exact sim_read f noise r _

/-- The second gather at row `r` reads the self term: the similarity of row `r` of `f` with itself. -/
theorem self_read (f noise : Feat) (r : Fin 8192) :
    val_main_v44 (F := Ideal) f noise (ix1 r) = sim f noise r ⟨r.val + 8192, by omega⟩ := by
  have hr := r.isLt
  unfold val_main_v44
  rw [gather_at _ _ r r ⟨r.val + 8192, by omega⟩
    (by rw [v43_col0, toInt_word _ (by omega)]; rfl) (by rw [v43_col1, toInt_word _ (by omega)]; rfl)]
  exact sim_read f noise r _

/-! ## The row sums and the losses -/

/-- The sum along row `r` of the matrix of exponentials. -/
theorem rowsum_read (f noise : Feat) (r : Fin 8192) :
    val_main_v45 (F := Ideal) f noise (ix1 r) = ∑ c : Fin 16384, sim f noise r c := by
  rw [val_main_v45_apply, val_main_cst_8_apply, Ideal.ofBits_def, Ideal.ofBits_zero_f32, zero_add]
  refine Finset.sum_congr rfl fun c _ => ?_
  have e : idx_main_v45 (ix1 r) c = ix2 r c :=
    funext fun a => Fin.ext (by match a with | ⟨0, _⟩ => rfl | ⟨1, _⟩ => rfl)
  rw [e]
  exact sim_read f noise r c

/-- The reference's vector of row losses is `lossVec`. -/
theorem ref_loss (f noise : Feat) :
    Cert.ReferenceIdeal.ReadP.val_main_v52 (F := Ideal) f noise = Cert.InfoNCE.lossVec f noise := by
  funext i
  obtain ⟨r, rfl⟩ : ∃ r : Fin 8192, i = ix1 r := ⟨i 0, eq_ix1 i⟩
  rw [val_main_v52_apply, val_main_v51_apply, val_main_v50_apply, val_main_v49_apply, val_main_v47_apply,
    val_main_v46_apply, val_main_v48_apply, val_main_cst_9_apply, pos_read, self_read, rowsum_read]
  show _ = lossOf (sim f noise r ⟨r.val, by omega⟩) (sim f noise r ⟨r.val + 8192, by omega⟩)
    (∑ c : Fin 16384, sim f noise r c)
  unfold lossOf eps
  simp only [Ideal.hostNegf_def, Ideal.negf_def, Ideal.hostUnary_log_def, Ideal.hostDivf_def, Ideal.addf_def,
    Ideal.subf_def, Ideal.ofBits_def]

end Cert.InfoNCE.Ref

end
-- ==== Proof.lean ====
/-
  The kernel computes the InfoNCE contrastive loss of `f`, `noise` : [8192, 128] without ever forming the
  [8192, 16384] matrix of similarities: it walks an 8 × 16 grid of 1024 × 1024 tiles, row block by row block; for
  each row it keeps a running sum of exp(cosine similarity) over the column blocks met so far, picks the tile's
  diagonal where the column block holds the row's partner in `noise` (the positive) and where it holds the row's
  own copy (the self term), and at the last column block writes -log(pos / (sum - pos - self + eps)); the host then
  takes the mean. The reference forms the whole matrix, gathers the two diagonals, sums each row at once and takes the
  same mean. Over the extended reals the two are one function of the arguments: a tile's entry is the matrix's entry
  (the norms, the products and the clamp are computed from the same rows), the sum over 16 column blocks of 1024
  is the sum over 16384 columns (addition is commutative and associative there), and the one-hot row sum that picks a
  diagonal entry is that entry. No finiteness of the inputs is used.

  `frame`: the two kernels' frames are the generated ones; the reference's is its run with the result dropped.
  `preserves`: the idealization rewrote nothing. `algebraic`: both runs end at the mean of the vector of row losses
  (`Cert.InfoNCE.lossVec`) of arguments that agree.
-/
import proofs.«126366_j87290915323998_1_alg».proof.Defs
import proofs.«126366_j87290915323998_1_alg».proof.Proof.Gen.Kernel
import proofs.«126366_j87290915323998_1_alg».proof.Proof.Gen.Kernel.Skeleton
import proofs.«126366_j87290915323998_1_alg».proof.Proof.Gen.Kernel.Launch
import proofs.«126366_j87290915323998_1_alg».proof.Proof.Gen.Kernel.Points
import proofs.«126366_j87290915323998_1_alg».proof.Proof.Gen.Kernel.Frame
import proofs.«126366_j87290915323998_1_alg».proof.Proof.Gen.KernelIdeal
import proofs.«126366_j87290915323998_1_alg».proof.Proof.Gen.KernelIdeal.Skeleton
import proofs.«126366_j87290915323998_1_alg».proof.Proof.Gen.KernelIdeal.Launch
import proofs.«126366_j87290915323998_1_alg».proof.Proof.Gen.KernelIdeal.Points
import proofs.«126366_j87290915323998_1_alg».proof.Proof.Gen.KernelIdeal.Frame
import proofs.«126366_j87290915323998_1_alg».proof.Proof.Gen.ReferenceIdeal
import proofs.«126366_j87290915323998_1_alg».proof.Proof.Gen.Pre_finite_inputs
import proofs.«126366_j87290915323998_1_alg».proof.Proof.KernelValue
import proofs.«126366_j87290915323998_1_alg».proof.Proof.RefRunP
import proofs.«126366_j87290915323998_1_alg».proof.Proof.RefLoss
import Idealize.ShloMosaic.Adequacy
import Idealize.ShloMosaic.Init

noncomputable section

namespace Cert.Proof

open Idealize.ShloMosaic Idealize.ShloMosaic.TcCoe Idealize.SL.Sem Cert.InfoNCE

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- The reference's result, as a term of its arguments, is the mean of the row losses: its last three operations
    are the mean, and the vector they average is the loss vector (read index by index in `Ref.ref_loss`). -/
theorem ref_result (m' : (ℓ : Loc Cert.ReferenceIdeal.nD Cert.ReferenceIdeal.τ Cert.ReferenceIdeal.sig) → Buf (Elt Ideal) ℓ)
    (c : Dev Cert.ReferenceIdeal.nD) :
    Cert.ReferenceIdeal.ValueP.res_main_v54 (F := Ideal) m' c
      = Cert.KernelIdeal.Result.meanOf
          (lossVec (m' ((c.tc : Thread Cert.ReferenceIdeal.nD Cert.ReferenceIdeal.τ).loc Cert.ReferenceIdeal.main_arg0))
            (m' ((c.tc : Thread Cert.ReferenceIdeal.nD Cert.ReferenceIdeal.τ).loc Cert.ReferenceIdeal.main_arg1))) := by
  have e : Cert.ReferenceIdeal.ValueP.res_main_v54 (F := Ideal) m' c
      = Cert.ReferenceIdeal.ReadP.val_main_v54 (F := Ideal)
          (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg1)) := by
    unfold Cert.ReferenceIdeal.ValueP.res_main_v54; rfl
  rw [e]
  unfold Cert.ReferenceIdeal.ReadP.val_main_v54 Cert.ReferenceIdeal.ReadP.val_main_v53
  rw [Cert.InfoNCE.Ref.ref_loss]
  rfl

/-- At `Ideal` the kernel's result ends at the mean of the row losses of its arguments (the kernel's run, read) and the
    reference's at the same mean of arguments that agree. -/
theorem algebraic : Cert.algebraic_KernelIdeal_ReferenceIdeal := by
  intro m ρ m' ρ' _ hagree
  refine ⟨fun c => Cert.KernelIdeal.Result.meanOf
      (lossVec (Cert.KernelIdeal.Blocks.fArr m c) (Cert.KernelIdeal.Blocks.noiseArr m c)),
    Cert.KernelIdeal.Result.run m ρ, ?_⟩
  refine (θ_run Cert.ReferenceIdeal.defs _ _).mono (fun _ h c => ⟨(h c).1.trans ?_, (h c).2⟩)
    (Cert.ReferenceIdeal.ValueP.run (F := Ideal) m' ρ')
  rw [ref_result m' c, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
